-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v37_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v37_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32x2048x2048 : Shape := ⟨3, ![32, 2048, 2048]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S1024x1 : Shape := ⟨2, ![1024, 1]⟩
abbrev S1 : Shape := ⟨1, ![1]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32x2048x2048 : S_.BroadcastsInDim S32x2048x2048 (![] : Fin 0 → Fin S32x2048x2048.rank)
  reducesTo_S32x2048x2048_S_d0_1_2 : S32x2048x2048.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1024x1 .f32) (main_v50 : FVec F S1024x1 .f32) : IVec S_ 1 :=
  let main_v51 : IVec S1024x1 1 := cmpf .olt main_v49 main_v50
  let main_c_19 : IVec S_ 1 := constantI S_ 1 1#1
  let main_v52 : IVec S_ 1 := (fun x v => Host.reduce IntOp.andi x v reducesTo_S1024x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S2048 .f32) (main_arg8 : FVec F S2048x1024 .f32) (main_arg9 : FVec F S1024 .f32) (main_arg10 : FVec F S1024x1 .f32) (main_arg11 : FVec F S1 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1 .f32 := Host.absf main_arg10
  let main_cst_18 : FVec F S_ .f32 := constant S_ .f32 0x7F800000#32
  let main_v50 : FVec F S1024x1 .f32 := broadcastInDim S1024x1 ![] bcast_S_S1024x1 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x2048 .f32) (main_arg7 : FVec F S2048 .f32) (main_arg8 : FVec F S2048x1024 .f32) (main_arg9 : FVec F S1024 .f32) (main_arg10 : FVec F S1024x1 .f32) (main_arg11 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32x1024 .f32) (main_arg1 : FVec F S32x2048x2048 .f32) (main_arg2 : FVec F S1024x1024 .f32) (main_arg3 : FVec F S1024 .f32) (main_arg4 : FVec F S1024x1024 .f32) (main_arg5 : FVec F S1024 .f32) (main_arg6 : FVec F S1024x2048 .f32) (main_arg7 : FVec F S2048 .f32) (main_arg8 : FVec F S2048x1024 .f32) (main_arg9 : FVec F S1024 .f32) (main_arg10 : FVec F S1024x1 .f32) (main_arg11 : FVec F S1 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x2048x2048 .f32 := Host.absf main_arg1
  let main_cst_0 : FVec F S_ .f32 := constant S_ .f32 0x7F800000#32
  let main_v5 : FVec F S32x2048x2048 .f32 := broadcastInDim S32x2048x2048 ![] bcast_S_S32x2048x2048 main_cst_0
  let main_v6 : IVec S32x2048x2048 1 := cmpf .olt main_v4 main_v5
  let main_c_1 : IVec S_ 1 := constantI S_ 1 1#1
  let main_v7 : IVec S_ 1 := (fun x v => Host.reduce IntOp.andi x v reducesTo_S32x2048x2048_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Kernel.lean ====
abbrev S32x1024 : Shape := ⟨2, ![32, 1024]⟩
abbrev S32x2048x2048 : Shape := ⟨3, ![32, 2048, 2048]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S1024x1 : Shape := ⟨2, ![1024, 1]⟩
abbrev S1 : Shape := ⟨1, ![1]⟩
abbrev S1x1024 : Shape := ⟨2, ![1, 1024]⟩
abbrev S32x2048 : Shape := ⟨2, ![32, 2048]⟩
abbrev S1x2048 : Shape := ⟨2, ![1, 2048]⟩
abbrev S32x1 : Shape := ⟨2, ![32, 1]⟩
abbrev S1x1 : Shape := ⟨2, ![1, 1]⟩
abbrev S_ : Shape := ⟨0, ![]⟩
abbrev S32x2047 : Shape := ⟨2, ![32, 2047]⟩
abbrev S32x1x2048 : Shape := ⟨3, ![32, 1, 2048]⟩
abbrev S32x1x1 : Shape := ⟨3, ![32, 1, 1]⟩
abbrev S1x2048x2048 : Shape := ⟨3, ![1, 2048, 2048]⟩
abbrev S1x1x2048 : Shape := ⟨3, ![1, 1, 2048]⟩
abbrev S1x1x1 : Shape := ⟨3, ![1, 1, 1]⟩
abbrev S1x2048x1 : Shape := ⟨3, ![1, 2048, 1]⟩
abbrev S32 : Shape := ⟨1, ![32]⟩

abbrev nBuf : Space → Nat
  | .hbm => 79
  | .vmem => 13
  | .smem => 0
  | _ => 0

abbrev bufTy : (tb : Table) → Fin (tcTables nBuf tb) → BufTy
  | .hbm, ⟨0, _⟩ => ⟨S32x1024, .f32⟩
  | .hbm, ⟨1, _⟩ => ⟨S32x2048x2048, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x2048, .f32⟩
  | .hbm, ⟨7, _⟩ => ⟨S2048, .f32⟩
  | .hbm, ⟨8, _⟩ => ⟨S2048x1024, .f32⟩
  | .hbm, ⟨9, _⟩ => ⟨S1024, .f32⟩
  | .hbm, ⟨10, _⟩ => ⟨S1024x1, .f32⟩
  | .hbm, ⟨11, _⟩ => ⟨S1, .f32⟩
  | .hbm, ⟨12, _⟩ => ⟨S32x1024, .f32⟩
  | .hbm, ⟨13, _⟩ => ⟨S1x1024, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S1x1024, .f32⟩
  | .hbm, ⟨18, _⟩ => ⟨S32x1024, .f32⟩
  | .hbm, ⟨19, _⟩ => ⟨S32x1024, .f32⟩
  | .hbm, ⟨20, _⟩ => ⟨S32x2048, .f32⟩
  | .hbm, ⟨21, _⟩ => ⟨S1x2048, .f32⟩
  | .hbm, ⟨22, _⟩ => ⟨S32x2048, .f32⟩
  | .hbm, ⟨23, _⟩ => ⟨S32x2048, .f32⟩
  | .hbm, ⟨24, _⟩ => ⟨S32x1, .f32⟩
  | .hbm, ⟨25, _⟩ => ⟨S1x1, .f32⟩
  | .hbm, ⟨26, _⟩ => ⟨S32x1, .f32⟩
  | .hbm, ⟨27, _⟩ => ⟨S32x1, .f32⟩
  | .hbm, ⟨28, _⟩ => ⟨S32x1, .f32⟩
  | .hbm, ⟨29, _⟩ => ⟨S32x1, .f32⟩
  | .hbm, ⟨30, _⟩ => ⟨S_, .f32⟩
  | .hbm, ⟨31, _⟩ => ⟨S32x1, .f32⟩
  | .hbm, ⟨32, _⟩ => ⟨S32x1, .f32⟩
  | .hbm, ⟨33, _⟩ => ⟨S_, .f32⟩
  | .hbm, ⟨34, _⟩ => ⟨S32x1, .f32⟩
  | .hbm, ⟨35, _⟩ => ⟨S32x1, .f32⟩
  | .hbm, ⟨36, _⟩ => ⟨S_, .f32⟩
  | .hbm, ⟨37, _⟩ => ⟨S32x1024, .f32⟩
  | .hbm, ⟨38, _⟩ => ⟨S32x1024, .f32⟩
  | .hbm, ⟨39, _⟩ => ⟨S32x1024, .f32⟩
  | .hbm, ⟨40, _⟩ => ⟨S_, .f32⟩
  | .hbm, ⟨41, _⟩ => ⟨S32x1024, .f32⟩
  | .hbm, ⟨42, _⟩ => ⟨S32x1024, .f32⟩
  | .hbm, ⟨43, _⟩ => ⟨S32x2048, .f32⟩
  | .hbm, ⟨44, _⟩ => ⟨S32x1, .f32⟩
  | .hbm, ⟨45, _⟩ => ⟨S32x2047, .f32⟩
  | .hbm, ⟨46, _⟩ => ⟨S32x2048, .f32⟩
  | .hbm, ⟨47, _⟩ => ⟨S32x2048, .f32⟩
  | .hbm, ⟨48, _⟩ => ⟨S_, .f32⟩
  | .hbm, ⟨49, _⟩ => ⟨S32x1024, .f32⟩
  | .hbm, ⟨50, _⟩ => ⟨S32x1024, .f32⟩
  | .hbm, ⟨51, _⟩ => ⟨S32x1024, .f32⟩
  | .hbm, ⟨52, _⟩ => ⟨S_, .f32⟩
  | .hbm, ⟨53, _⟩ => ⟨S32x1024, .f32⟩
  | .hbm, ⟨54, _⟩ => ⟨S32x1024, .f32⟩
  | .hbm, ⟨55, _⟩ => ⟨S32x2048, .f32⟩
  | .hbm, ⟨56, _⟩ => ⟨S32x1, .f32⟩
  | .hbm, ⟨57, _⟩ => ⟨S32x2047, .f32⟩
  | .hbm, ⟨58, _⟩ => ⟨S32x2048, .f32⟩
  | .hbm, ⟨59, _⟩ => ⟨S32x2048, .f32⟩
  | .hbm, ⟨60, _⟩ => ⟨S32x1x2048, .f32⟩
  | .hbm, ⟨61, _⟩ => ⟨S32x1x2048, .f32⟩
  | .hbm, ⟨62, _⟩ => ⟨S32x1x1, .f32⟩
  | .hbm, ⟨63, _⟩ => ⟨S32x2048x2048, .f32⟩
  | .hbm, ⟨64, _⟩ => ⟨S32x1x2048, .f32⟩
  | .hbm, ⟨65, _⟩ => ⟨S32x1x2048, .f32⟩
  | .hbm, ⟨66, _⟩ => ⟨S32x2048, .f32⟩
  | .hbm, ⟨67, _⟩ => ⟨S32x2048, .f32⟩
  | .hbm, ⟨68, _⟩ => ⟨S_, .f32⟩
  | .hbm, ⟨69, _⟩ => ⟨S32, .f32⟩
  | .hbm, ⟨70, _⟩ => ⟨S32x1, .f32⟩
  | .hbm, ⟨71, _⟩ => ⟨S32x2048, .f32⟩
  | .hbm, ⟨72, _⟩ => ⟨S32x2048, .f32⟩
  | .hbm, ⟨73, _⟩ => ⟨S32x2048, .f32⟩
  | .hbm, ⟨74, _⟩ => ⟨S32x2048, .f32⟩
  | .hbm, ⟨75, _⟩ => ⟨S32x1024, .f32⟩
  | .hbm, ⟨76, _⟩ => ⟨S1x1024, .f32⟩
  | .hbm, ⟨77, _⟩ => ⟨S32x1024, .f32⟩
  | .hbm, ⟨78, _⟩ => ⟨S32x1024, .f32⟩
  | .local _ .vmem, ⟨0, _⟩ => ⟨S1x2048x2048, .f32⟩
  | .local _ .vmem, ⟨1, _⟩ => ⟨S1x2048x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x1, .f32⟩
  | .local _ .vmem, ⟨7, _⟩ => ⟨S1x1x1, .f32⟩
  | .local _ .vmem, ⟨8, _⟩ => ⟨S1x2048x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_call2_v0 : Ref sig .tc := ⟨.hbm, 44, rfl⟩
abbrev main_call2_v1 : Ref sig .tc := ⟨.hbm, 45, rfl⟩
abbrev main_v26 : Ref sig .tc := ⟨.hbm, 46, rfl⟩
abbrev main_v27 : Ref sig .tc := ⟨.hbm, 47, rfl⟩
abbrev main_call3_cst : Ref sig .tc := ⟨.hbm, 48, rfl⟩
abbrev main_call3_v0 : Ref sig .tc := ⟨.hbm, 49, rfl⟩
abbrev main_v28 : Ref sig .tc := ⟨.hbm, 50, rfl⟩
abbrev main_v29 : Ref sig .tc := ⟨.hbm, 51, rfl⟩
abbrev main_call4_cst : Ref sig .tc := ⟨.hbm, 52, rfl⟩
abbrev main_call4_v0 : Ref sig .tc := ⟨.hbm, 53, rfl⟩
abbrev main_v30 : Ref sig .tc := ⟨.hbm, 54, rfl⟩
abbrev main_v31 : Ref sig .tc := ⟨.hbm, 55, rfl⟩
abbrev main_call5_v0 : Ref sig .tc := ⟨.hbm, 56, rfl⟩
abbrev main_call5_v1 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37_0 : Ref sig .tc := ⟨.hbm, 63, rfl⟩
abbrev main_v37_1 : Ref sig .tc := ⟨.hbm, 64, rfl⟩
abbrev main_v37_2 : Ref sig .tc := ⟨.hbm, 65, rfl⟩
abbrev main_v38 : Ref sig .tc := ⟨.hbm, 66, rfl⟩
abbrev main_v39 : Ref sig .tc := ⟨.hbm, 67, rfl⟩
abbrev main_cst_1 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S2048_S1x2048_1 : S2048.BroadcastsInDim S1x2048 (![1] : Fin 1 → Fin S1x2048.rank)
  bcast_S1x2048_S32x2048_0_1 : S1x2048.BroadcastsInDim S32x2048 (![0, 1] : Fin 2 → Fin S32x2048.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  bcast_S_S32x1 : S_.BroadcastsInDim S32x1 (![] : Fin 0 → Fin S32x1.rank)
  bcast_S_S32x1024 : S_.BroadcastsInDim S32x1024 (![] : Fin 0 → Fin S32x1024.rank)
  concatenates_S32x1024_S32x1024_S32x2048_d1 : Shape.Concatenates [S32x1024, S32x1024] S32x2048 1
  slices_S32x2048_S32x1_0_2047 : S32x2048.Slices ![0, 2047] S32x1
  slices_S32x2048_S32x2047_0_0 : S32x2048.Slices ![0, 0] S32x2047
  concatenates_S32x1_S32x2047_S32x2048_d1 : Shape.Concatenates [S32x1, S32x2047] S32x2048 1
  bcast_S32x2048_S32x1x2048_0_2 : S32x2048.BroadcastsInDim S32x1x2048 (![0, 2] : Fin 2 → Fin S32x1x2048.rank)
  bcast_S32x1_S32x1x1_0_2 : S32x1.BroadcastsInDim S32x1x1 (![0, 2] : Fin 2 → Fin S32x1x1.rank)
  inb_S1x2048x2048_S1x2048x2048_0_0_0 : ∀ a, (![0, 0, 0] : Fin 3 → Nat) a + S1x2048x2048.size a ≤ S1x2048x2048.size a
  h_S1x2048x2048 : 0 < S1x2048x2048.numel
  reduces_S1x2048x2048_S1x2048 : S1x2048x2048.Reduces [1] S1x2048
  shapeCasts_S1x2048_S1x1x2048 : S1x2048.ShapeCasts S1x1x2048
  reduces_S1x2048x2048_S1x2048_2 : S1x2048x2048.Reduces [2] S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  broadcasts_S1x1x1_S1x1x2048 : S1x1x1.Broadcasts S1x1x2048
  transposes_S1x1x2048_p0_2_1_S1x2048x1 : S1x1x2048.Transposes [0, 2, 1] S1x2048x1
  broadcasts_S1x2048x1_S1x2048x2048 : S1x2048x1.Broadcasts S1x2048x2048
  broadcasts_S1x1x2048_S1x2048x2048 : S1x1x2048.Broadcasts S1x2048x2048
  shapeCasts_S32x1x2048_S32x2048 : S32x1x2048.ShapeCasts S32x2048
  reducesTo_S32x2048_S32_d1 : S32x2048.ReducesTo [1] S32
  h_S_ : 0 < S_.numel
  bcast_S32_S32x1_0 : S32.BroadcastsInDim S32x1 (![0] : Fin 1 → Fin S32x1.rank)
  bcast_S32x1_S32x2048_0_1 : S32x1.BroadcastsInDim S32x2048 (![0, 1] : Fin 2 → Fin S32x2048.rank)
  dot_S32x1024_S1024x1024_S32x1024_1_0_0_1_n_n_wf : DotDims.WF S32x1024 S1024x1024 S32x1024 [1] [0] [0] [1] [] []
  dot_S32x1024_S1024x2048_S32x2048_1_0_0_1_n_n_wf : DotDims.WF S32x1024 S1024x2048 S32x2048 [1] [0] [0] [1] [] []
  dot_S32x1024_S1024x1_S32x1_1_0_0_1_n_n_wf : DotDims.WF S32x1024 S1024x1 S32x1 [1] [0] [0] [1] [] []
  dot_S32x2048_S2048x1024_S32x1024_1_0_0_1_n_n_wf : DotDims.WF S32x2048 S2048x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S32x2048x2048.size a
  hwx0_0 : ∀ i : grid0.Coords, EltTy.bits .f32 = 32 ∨ (Rect.block (s := S32x2048x2048) S1x2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S32x1x2048.size a
  hwx0_1 : ∀ i : grid0.Coords, EltTy.bits .f32 = 32 ∨ (Rect.block (s := S32x1x2048) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S32x1x2048.size a
  hwx0_2 : ∀ i : grid0.Coords, EltTy.bits .f32 = 32 ∨ (Rect.block (s := S32x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S32x1x1.size a
  hwx0_3 : ∀ i : grid0.Coords, EltTy.bits .f32 = 32 ∨ (Rect.block (s := S32x1x1) S1x1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048x2048.size a ≤ S32x2048x2048.size a
  hwx0_4 : ∀ i : grid0.Coords, EltTy.bits .f32 = 32 ∨ (Rect.block (s := S32x2048x2048) S1x2048x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S32x1x2048.size a
  hwx0_5 : ∀ i : grid0.Coords, EltTy.bits .f32 = 32 ∨ (Rect.block (s := S32x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S32x1x2048.size a
  hwx0_6 : ∀ i : grid0.Coords, EltTy.bits .f32 = 32 ∨ (Rect.block (s := S32x1x2048) S1x1x2048.size (cc0_transform_6 i) (hinb0_6 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x2048_S32x2048_1_0_0_1_n_n : DotDims S32x1024 S1024x2048 S32x2048 where
  lhsContracting := [1]
  rhsContracting := [0]
  lhsNonContracting := [0]
  rhsNonContracting := [1]
  lhsBatch := []
  rhsBatch := []
  wf := dot_S32x1024_S1024x2048_S32x2048_1_0_0_1_n_n_wf
def dot_S32x1024_S1024x1_S32x1_1_0_0_1_n_n : DotDims S32x1024 S1024x1 S32x1 where
  lhsContracting := [1]
  rhsContracting := [0]
  lhsNonContracting := [0]
  rhsNonContracting := [1]
  lhsBatch := []
  rhsBatch := []
  wf := dot_S32x1024_S1024x1_S32x1_1_0_0_1_n_n_wf
def dot_S32x2048_S2048x1024_S32x1024_1_0_0_1_n_n : DotDims S32x2048 S2048x1024 S32x1024 where
  lhsContracting := [1]
  rhsContracting := [0]
  lhsNonContracting := [0]
  rhsNonContracting := [1]
  lhsBatch := []
  rhsBatch := []
  wf := dot_S32x2048_S2048x1024_S32x1024_1_0_0_1_n_n_wf

abbrev win0_0 : Pipeline.Window sig grid0 :=
  Pipeline.Window.ofSpec (Memref.whole main_arg1) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37_0) S1x2048x2048.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37_1) S1x1x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v37_2) S1x1x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where
  halias0_4 : Pipeline.Aliased win0 0 4

variable [Facts]
-- ==== ReferenceIdeal.lean ====
abbrev S32x1024 : Shape := ⟨2, ![32, 1024]⟩
abbrev S32x2048x2048 : Shape := ⟨3, ![32, 2048, 2048]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S1024x1 : Shape := ⟨2, ![1024, 1]⟩
abbrev S1 : Shape := ⟨1, ![1]⟩
abbrev S1x1024 : Shape := ⟨2, ![1, 1024]⟩
abbrev S32x2048 : Shape := ⟨2, ![32, 2048]⟩
abbrev S1x2048 : Shape := ⟨2, ![1, 2048]⟩
abbrev S32x1 : Shape := ⟨2, ![32, 1]⟩
abbrev S1x1 : Shape := ⟨2, ![1, 1]⟩
abbrev S_ : Shape := ⟨0, ![]⟩
abbrev S32x2047 : Shape := ⟨2, ![32, 2047]⟩
abbrev S32x2048x1 : Shape := ⟨3, ![32, 2048, 1]⟩
abbrev S32x1x2048 : Shape := ⟨3, ![32, 1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x2048x2048, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x2048, .f32⟩
  | .hbm, ⟨7, _⟩ => ⟨S2048, .f32⟩
  | .hbm, ⟨8, _⟩ => ⟨S2048x1024, .f32⟩
  | .hbm, ⟨9, _⟩ => ⟨S1024, .f32⟩
  | .hbm, ⟨10, _⟩ => ⟨S1024x1, .f32⟩
  | .hbm, ⟨11, _⟩ => ⟨S1, .f32⟩
  | .hbm, ⟨12, _⟩ => ⟨S32x1024, .f32⟩
  | .hbm, ⟨13, _⟩ => ⟨S1x1024, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S1x1024, .f32⟩
  | .hbm, ⟨18, _⟩ => ⟨S32x1024, .f32⟩
  | .hbm, ⟨19, _⟩ => ⟨S32x1024, .f32⟩
  | .hbm, ⟨20, _⟩ => ⟨S32x2048, .f32⟩
  | .hbm, ⟨21, _⟩ => ⟨S1x2048, .f32⟩
  | .hbm, ⟨22, _⟩ => ⟨S32x2048, .f32⟩
  | .hbm, ⟨23, _⟩ => ⟨S32x2048, .f32⟩
  | .hbm, ⟨24, _⟩ => ⟨S32x1, .f32⟩
  | .hbm, ⟨25, _⟩ => ⟨S1x1, .f32⟩
  | .hbm, ⟨26, _⟩ => ⟨S32x1, .f32⟩
  | .hbm, ⟨27, _⟩ => ⟨S32x1, .f32⟩
  | .hbm, ⟨28, _⟩ => ⟨S32x1, .f32⟩
  | .hbm, ⟨29, _⟩ => ⟨S32x1, .f32⟩
  | .hbm, ⟨30, _⟩ => ⟨S_, .f32⟩
  | .hbm, ⟨31, _⟩ => ⟨S32x1, .f32⟩
  | .hbm, ⟨32, _⟩ => ⟨S32x1, .f32⟩
  | .hbm, ⟨33, _⟩ => ⟨S_, .f32⟩
  | .hbm, ⟨34, _⟩ => ⟨S32x1, .f32⟩
  | .hbm, ⟨35, _⟩ => ⟨S32x1, .f32⟩
  | .hbm, ⟨36, _⟩ => ⟨S_, .f32⟩
  | .hbm, ⟨37, _⟩ => ⟨S32x1024, .f32⟩
  | .hbm, ⟨38, _⟩ => ⟨S32x1024, .f32⟩
  | .hbm, ⟨39, _⟩ => ⟨S32x1024, .f32⟩
  | .hbm, ⟨40, _⟩ => ⟨S_, .f32⟩
  | .hbm, ⟨41, _⟩ => ⟨S32x1024, .f32⟩
  | .hbm, ⟨42, _⟩ => ⟨S32x1024, .f32⟩
  | .hbm, ⟨43, _⟩ => ⟨S32x2048, .f32⟩
  | .hbm, ⟨44, _⟩ => ⟨S32x1, .f32⟩
  | .hbm, ⟨45, _⟩ => ⟨S32x2047, .f32⟩
  | .hbm, ⟨46, _⟩ => ⟨S32x2048, .f32⟩
  | .hbm, ⟨47, _⟩ => ⟨S32x2048, .f32⟩
  | .hbm, ⟨48, _⟩ => ⟨S_, .f32⟩
  | .hbm, ⟨49, _⟩ => ⟨S32x2048, .f32⟩
  | .hbm, ⟨50, _⟩ => ⟨S32x2048, .f32⟩
  | .hbm, ⟨51, _⟩ => ⟨S32x2048, .f32⟩
  | .hbm, ⟨52, _⟩ => ⟨S32x2048, .f32⟩
  | .hbm, ⟨53, _⟩ => ⟨S32x2048, .f32⟩
  | .hbm, ⟨54, _⟩ => ⟨S32x2048x1, .f32⟩
  | .hbm, ⟨55, _⟩ => ⟨S32x1x2048, .f32⟩
  | .hbm, ⟨56, _⟩ => ⟨S32x2048x2048, .f32⟩
  | .hbm, ⟨57, _⟩ => ⟨S32x2048x2048, .f32⟩
  | .hbm, ⟨58, _⟩ => ⟨S32x2048x2048, .f32⟩
  | .hbm, ⟨59, _⟩ => ⟨S32x2048x2048, .f32⟩
  | .hbm, ⟨60, _⟩ => ⟨S_, .f32⟩
  | .hbm, ⟨61, _⟩ => ⟨S32x1024, .f32⟩
  | .hbm, ⟨62, _⟩ => ⟨S32x1024, .f32⟩
  | .hbm, ⟨63, _⟩ => ⟨S32x1024, .f32⟩
  | .hbm, ⟨64, _⟩ => ⟨S_, .f32⟩
  | .hbm, ⟨65, _⟩ => ⟨S32x1024, .f32⟩
  | .hbm, ⟨66, _⟩ => ⟨S32x1024, .f32⟩
  | .hbm, ⟨67, _⟩ => ⟨S32x2048, .f32⟩
  | .hbm, ⟨68, _⟩ => ⟨S32x1, .f32⟩
  | .hbm, ⟨69, _⟩ => ⟨S32x2047, .f32⟩
  | .hbm, ⟨70, _⟩ => ⟨S32x2048, .f32⟩
  | .hbm, ⟨71, _⟩ => ⟨S32x2048, .f32⟩
  | .hbm, ⟨72, _⟩ => ⟨S_, .f32⟩
  | .hbm, ⟨73, _⟩ => ⟨S32x2048, .f32⟩
  | .hbm, ⟨74, _⟩ => ⟨S32x2048, .f32⟩
  | .hbm, ⟨75, _⟩ => ⟨S32x1024, .f32⟩
  | .hbm, ⟨76, _⟩ => ⟨S1x1024, .f32⟩
  | .hbm, ⟨77, _⟩ => ⟨S32x1024, .f32⟩
  | .hbm, ⟨78, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_call2_v0 : Ref sig .tc := ⟨.hbm, 44, rfl⟩
abbrev main_call2_v1 : Ref sig .tc := ⟨.hbm, 45, rfl⟩
abbrev main_v26 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call3_cst : Ref sig .tc := ⟨.hbm, 60, rfl⟩
abbrev main_call3_v0 : Ref sig .tc := ⟨.hbm, 61, rfl⟩
abbrev main_v39 : Ref sig .tc := ⟨.hbm, 62, rfl⟩
abbrev main_v40 : Ref sig .tc := ⟨.hbm, 63, rfl⟩
abbrev main_call4_cst : Ref sig .tc := ⟨.hbm, 64, rfl⟩
abbrev main_call4_v0 : Ref sig .tc := ⟨.hbm, 65, rfl⟩
abbrev main_v41 : Ref sig .tc := ⟨.hbm, 66, rfl⟩
abbrev main_v42 : Ref sig .tc := ⟨.hbm, 67, rfl⟩
abbrev main_call5_v0 : Ref sig .tc := ⟨.hbm, 68, rfl⟩
abbrev main_call5_v1 : Ref sig .tc := ⟨.hbm, 69, rfl⟩
abbrev main_v43 : Ref sig .tc := ⟨.hbm, 70, rfl⟩
abbrev main_v44 : Ref sig .tc := ⟨.hbm, 71, rfl⟩
abbrev main_cst_2 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S2048_S1x2048_1 : S2048.BroadcastsInDim S1x2048 (![1] : Fin 1 → Fin S1x2048.rank)
  bcast_S1x2048_S32x2048_0_1 : S1x2048.BroadcastsInDim S32x2048 (![0, 1] : Fin 2 → Fin S32x2048.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  bcast_S_S32x1 : S_.BroadcastsInDim S32x1 (![] : Fin 0 → Fin S32x1.rank)
  bcast_S_S32x1024 : S_.BroadcastsInDim S32x1024 (![] : Fin 0 → Fin S32x1024.rank)
  concatenates_S32x1024_S32x1024_S32x2048_d1 : Shape.Concatenates [S32x1024, S32x1024] S32x2048 1
  slices_S32x2048_S32x1_0_2047 : S32x2048.Slices ![0, 2047] S32x1
  slices_S32x2048_S32x2047_0_0 : S32x2048.Slices ![0, 0] S32x2047
  concatenates_S32x1_S32x2047_S32x2048_d1 : Shape.Concatenates [S32x1, S32x2047] S32x2048 1
  reducesTo_S32x2048x2048_S32x2048_d1 : S32x2048x2048.ReducesTo [1] S32x2048
  h_S_ : 0 < S_.numel
  bcast_S32x1_S32x2048_0_1 : S32x1.BroadcastsInDim S32x2048 (![0, 1] : Fin 2 → Fin S32x2048.rank)
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  reducesTo_S32x2048x2048_S32x2048_d2 : S32x2048x2048.ReducesTo [2] S32x2048
  dot_S32x1024_S1024x1024_S32x1024_1_0_0_1_n_n_wf : DotDims.WF S32x1024 S1024x1024 S32x1024 [1] [0] [0] [1] [] []
  dot_S32x1024_S1024x2048_S32x2048_1_0_0_1_n_n_wf : DotDims.WF S32x1024 S1024x2048 S32x2048 [1] [0] [0] [1] [] []
  dot_S32x1024_S1024x1_S32x1_1_0_0_1_n_n_wf : DotDims.WF S32x1024 S1024x1 S32x1 [1] [0] [0] [1] [] []
  dot_S32x2048_S2048x1024_S32x1024_1_0_0_1_n_n_wf : DotDims.WF S32x2048 S2048x1024 S32x1024 [1] [0] [0] [1] [] []

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x2048_S32x2048_1_0_0_1_n_n : DotDims S32x1024 S1024x2048 S32x2048 where
  lhsContracting := [1]
  rhsContracting := [0]
  lhsNonContracting := [0]
  rhsNonContracting := [1]
  lhsBatch := []
  rhsBatch := []
  wf := dot_S32x1024_S1024x2048_S32x2048_1_0_0_1_n_n_wf
def dot_S32x1024_S1024x1_S32x1_1_0_0_1_n_n : DotDims S32x1024 S1024x1 S32x1 where
  lhsContracting := [1]
  rhsContracting := [0]
  lhsNonContracting := [0]
  rhsNonContracting := [1]
  lhsBatch := []
  rhsBatch := []
  wf := dot_S32x1024_S1024x1_S32x1_1_0_0_1_n_n_wf
def dot_S32x2048_S2048x1024_S32x1024_1_0_0_1_n_n : DotDims S32x2048 S2048x1024 S32x1024 where
  lhsContracting := [1]
  rhsContracting := [0]
  lhsNonContracting := [0]
  rhsNonContracting := [1]
  lhsBatch := []
  rhsBatch := []
  wf := dot_S32x2048_S2048x1024_S32x1024_1_0_0_1_n_n_wf

class Facts : Prop extends Facts₀ where

variable [Facts]
-- ==== Proof.KernelBody.lean ====
/-
  What the kernel body computes, entry by entry, on the extended reals.

  At one grid point the body holds one batch element: the slab `w` of shape [1, 2048, 2048], the value row `v`, the key
  row `kp` (both [1, 1, 2048]) and the gate `beta` ([1, 1, 1]). It writes three blocks:
    * the row sums      s2 i   = ∑ j, w i j                                   (a [1, 1, 2048] block),
    * the update vector dv i   = beta * (v i - (∑ r, w r i) * kp i)           (a [1, 1, 2048] block),
    * the new slab      w' i j = w i j + dv i * kp j                          (a [1, 2048, 2048] block).
  Each lemma below reads one of these payloads at an index given by coordinates; the layout operations in between (a
  unit axis added, the update vector turned into a column, the two broadcasts of the outer product) only move indices.
-/
import proofs.«126555_j12223476924536_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.SL.Sem Idealize.ShloMosaic.ValueIdx Cert.KernelIdeal Cert.KernelIdeal.Gen

/-- The sum along the last axis of a [1, 2048, 2048] slab, at row `i`. -/
theorem sum_last_apply (x : FVec Ideal S1x2048x2048 .f32) (h : S1x2048x2048.Reduces [2] S1x2048) (hφ : FKind.Formats .f32)
    (hacc : (0x00000000#32 : BitVec 32) = 0x00000000#32) (i : Fin 2048) :
    multiReduction .add [2] S1x2048 x 0x00000000#32 h hφ hacc (ix2 (0 : Fin 1) i) = ∑ j : Fin 2048, x (ix3 (0 : Fin 1) i j) := by
  refine (Ideal.multiReduction_add_single x 0x00000000#32 h hφ hacc (ix2 (0 : Fin 1) i)).trans ?_
  refine Finset.sum_congr rfl fun j _ => congrArg x (funext fun a => Fin.ext ?_)
  match a with
  | ⟨0, _⟩ => rfl
  | ⟨1, _⟩ => rfl
  | ⟨2, _⟩ => rfl

/-- The sum along the middle axis of a [1, 2048, 2048] slab, at column `j`. -/
theorem sum_middle_apply (x : FVec Ideal S1x2048x2048 .f32) (h : S1x2048x2048.Reduces [1] S1x2048) (hφ : FKind.Formats .f32)
    (hacc : (0x00000000#32 : BitVec 32) = 0x00000000#32) (j : Fin 2048) :
    multiReduction .add [1] S1x2048 x 0x00000000#32 h hφ hacc (ix2 (0 : Fin 1) j) = ∑ r : Fin 2048, x (ix3 (0 : Fin 1) r j) := by
  refine (Ideal.multiReduction_add_single x 0x00000000#32 h hφ hacc (ix2 (0 : Fin 1) j)).trans ?_
  refine Finset.sum_congr rfl fun r _ => congrArg x (funext fun a => Fin.ext ?_)
  match a with
  | ⟨0, _⟩ => rfl
  | ⟨1, _⟩ => rfl
  | ⟨2, _⟩ => rfl

/-- The gate, a [1, 1, 1] block, broadcast along the lanes reads its one entry. -/
theorem gate_broadcast_apply (g : FVec Ideal S1x1x1 .f32) (h : S1x1x1.Broadcasts S1x1x2048) (i : Fin 2048) :
    broadcastTo S1x1x2048 g h (ix3 (0 : Fin 1) (0 : Fin 1) i) = g (ix3 (0 : Fin 1) (0 : Fin 1) (0 : Fin 1)) :=
  broadcastTo_apply g h _ _ fun a => by
    match a with
    | ⟨0, _⟩ => rfl
    | ⟨1, _⟩ => rfl
    | ⟨2, _⟩ => rfl

/-- A [1, 2048, 1] column broadcast along the lanes reads the column at the row. -/
theorem column_broadcast_apply (col : FVec Ideal S1x2048x1 .f32) (h : S1x2048x1.Broadcasts S1x2048x2048) (i j : Fin 2048) :
    broadcastTo S1x2048x2048 col h (ix3 (0 : Fin 1) i j) = col (ix3 (0 : Fin 1) i (0 : Fin 1)) :=
  broadcastTo_apply col h _ _ fun a => by
    match a with
    | ⟨0, _⟩ => rfl
    | ⟨1, _⟩ => rfl
    | ⟨2, _⟩ => rfl

/-- A [1, 1, 2048] row broadcast down the rows reads the row at the lane. -/
theorem row_broadcast_apply (row : FVec Ideal S1x1x2048 .f32) (h : S1x1x2048.Broadcasts S1x2048x2048) (i j : Fin 2048) :
    broadcastTo S1x2048x2048 row h (ix3 (0 : Fin 1) i j) = row (ix3 (0 : Fin 1) (0 : Fin 1) j) :=
  broadcastTo_apply row h _ _ fun a => by
    match a with
    | ⟨0, _⟩ => rfl
    | ⟨1, _⟩ => rfl
    | ⟨2, _⟩ => rfl

variable (x0 : Vec Ideal S1x2048x2048 .f32) (x5 x7 : Vec Ideal S1x1x2048 .f32) (x9 : Vec Ideal S1x1x1 .f32)

/-- The first payload: the slab's row sums, entry `i`. -/
theorem row_sums_apply (i : Fin 2048) :
    k0_pay1 (F := Ideal) x0 (ix3 (0 : Fin 1) (0 : Fin 1) i) = ∑ j : Fin 2048, x0 (ix3 (0 : Fin 1) i j) := by
  unfold k0_pay1
  exact (shapeCast_ab_1ab_apply _ _ (0 : Fin 1) (0 : Fin 1) i).trans (sum_last_apply x0 _ _ _ i)

/-- The third payload: the update vector, entry `i`: the gate times the value less the column sum times the key. -/
theorem update_vector_apply (i : Fin 2048) :
    k0_pay3 (F := Ideal) x0 x5 x7 x9 (ix3 (0 : Fin 1) (0 : Fin 1) i)
      = x9 (ix3 (0 : Fin 1) (0 : Fin 1) (0 : Fin 1))
        * (x7 (ix3 (0 : Fin 1) (0 : Fin 1) i) - (∑ r : Fin 2048, x0 (ix3 (0 : Fin 1) r i)) * x5 (ix3 (0 : Fin 1) (0 : Fin 1) i)) := by
  unfold k0_pay3 k0_pay2
  rw [shapeCast_self, shapeCast_self, shapeCast_self]
  show broadcastTo S1x1x2048 x9 _ (ix3 (0 : Fin 1) (0 : Fin 1) i)
      * (x7 (ix3 (0 : Fin 1) (0 : Fin 1) i) - shapeCast S1x1x2048 _ _ (ix3 (0 : Fin 1) (0 : Fin 1) i) * x5 (ix3 (0 : Fin 1) (0 : Fin 1) i)) = _
  rw [gate_broadcast_apply, shapeCast_ab_1ab_apply, sum_middle_apply]

/-- The fourth payload: the new slab, entry `(i, j)`: the old entry plus the update vector at `i` times the key at `j`. -/
theorem new_slab_apply (i j : Fin 2048) :
    k0_pay4 (F := Ideal) x0 x5 x7 x9 (ix3 (0 : Fin 1) i j)
      = x0 (ix3 (0 : Fin 1) i j)
        + k0_pay3 (F := Ideal) x0 x5 x7 x9 (ix3 (0 : Fin 1) (0 : Fin 1) i) * x5 (ix3 (0 : Fin 1) (0 : Fin 1) j) := by
  unfold k0_pay4 k0_pay2
  rw [shapeCast_self]
  show x0 (ix3 (0 : Fin 1) i j) + broadcastTo S1x2048x2048 _ _ (ix3 (0 : Fin 1) i j) * broadcastTo S1x2048x2048 x5 _ (ix3 (0 : Fin 1) i j) = _
  rw [column_broadcast_apply, row_broadcast_apply, transpose_ix3_021_apply]

end Cert.KernelIdeal.Body

end
-- ==== Proof.KernelBlocks.lean ====
/-
  From blocks to arrays: what the three output arrays of the region hold after the run.

  The grid has one point per batch element `b`; every window's block at point `b` is the whole slice `b` of its array
  (index map `(b, 0, 0)`). So block `b` of each output is a function of slice `b` of the four inputs — the matrix stack
  `A0` ([32, 2048, 2048]), the value rows `A1`, the key rows `A2` ([32, 1, 2048]) and the gates `A3` ([32, 1, 1]), each
  AS THE REGION FINDS IT — and, the 32 blocks tiling each output array, the array after the run is one function of them:
    * new matrices   A0 b i j + dv b i * A2 b j,
    * row sums       ∑ j, A0 b i j,
    * update vectors dv b i = A3 b * (A1 b i - (∑ r, A0 b r i) * A2 b i).
-/
import proofs.«126555_j12223476924536_2_alg».proof.Proof.Gen.KernelIdeal.Frame
import proofs.«126555_j12223476924536_2_alg».proof.Proof.KernelBody

noncomputable section

namespace Cert.KernelIdeal.Blocks

open Idealize.ShloMosaic Idealize.ShloMosaic.TcCoe Idealize.SL.Sem Idealize.ShloMosaic.ValueIdx Cert.KernelIdeal Cert.KernelIdeal.Gen
open Idealize.ShloMosaic.Pipeline (Dat Cfg Window)

/-! ## The three output arrays as functions of the four input arrays -/

/-- The update vector of batch element `b` at `i`. -/
def updateVec (A0 : FVec Ideal S32x2048x2048 .f32) (A1 A2 : FVec Ideal S32x1x2048 .f32) (A3 : FVec Ideal S32x1x1 .f32)
    (b : Fin 32) (i : Fin 2048) : EReal :=
  A3 (ix3 b (0 : Fin 1) (0 : Fin 1))
    * (A1 (ix3 b (0 : Fin 1) i) - (∑ r : Fin 2048, A0 (ix3 b r i)) * A2 (ix3 b (0 : Fin 1) i))

/-- The matrices after the rank-one update. -/
def newMatrices (A0 : FVec Ideal S32x2048x2048 .f32) (A1 A2 : FVec Ideal S32x1x2048 .f32) (A3 : FVec Ideal S32x1x1 .f32) :
    FVec Ideal S32x2048x2048 .f32 := fun y =>
  A0 y + updateVec A0 A1 A2 A3 (y 0) (y 1) * A2 (ix3 (y 0 : Fin 32) (0 : Fin 1) (y 2 : Fin 2048))

/-- The row sums of the old matrices, one [1, 2048] row per batch element. -/
def rowSums (A0 : FVec Ideal S32x2048x2048 .f32) : FVec Ideal S32x1x2048 .f32 := fun y =>
  ∑ j : Fin 2048, A0 (ix3 (y 0 : Fin 32) (y 2 : Fin 2048) j)

/-- The update vectors, one [1, 2048] row per batch element. -/
def updateVecs (A0 : FVec Ideal S32x2048x2048 .f32) (A1 A2 : FVec Ideal S32x1x2048 .f32) (A3 : FVec Ideal S32x1x1 .f32) :
    FVec Ideal S32x1x2048 .f32 := fun y => updateVec A0 A1 A2 A3 (y 0) (y 2)

variable (m : (ℓ : Loc nD τ sig) → Buf (Elt Ideal) ℓ)

/-! ## The index maps: every window's block at point `t` is slice `t` -/

theorem zero_offsets : (![0, 0, 0] : Fin 3 → Nat) = fun _ => 0 := funext fun a => by fin_cases a <;> rfl

/-- The printed index maps, decided over the 32 grid points: block index `(t, 0, 0)` for all seven windows. -/
theorem index_maps : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-- The batch element grid point `t` works on. -/
def batchOf (t : Fin cfg0.N) : Fin 32 := ⟨t.val, lt_of_lt_of_eq t.isLt N_0⟩

/-! ## The input blocks at a point, read at an index -/

theorem matrix_block_apply (c : Dev nD) (t : Fin cfg0.N) (u : Fin 1) (i j : Fin 2048) :
    iblk m c 0 t (ix3 u i j) = V m c main_arg1 (ix3 (batchOf t) i j) := by
  obtain ⟨⟨e0, e1, e2⟩, -⟩ := index_maps t
  show V m c main_arg1 (((cfg0.win 0).blk t).view.emb (ix3 u i j)) = _
  refine congrArg (V m c main_arg1) (funext fun a => Fin.ext ?_)
  match a with
  | ⟨0, _⟩ => show win0_0.index t (0 : Fin 3) * 1 + 1 * u.val = t.val; omega
  | ⟨1, _⟩ => show win0_0.index t (1 : Fin 3) * 2048 + 1 * i.val = i.val; omega
  | ⟨2, _⟩ => show win0_0.index t (2 : Fin 3) * 2048 + 1 * j.val = j.val; omega

theorem value_block_apply (c : Dev nD) (t : Fin cfg0.N) (u v : Fin 1) (i : Fin 2048) :
    iblk m c 1 t (ix3 u v i) = V m c main_v34 (ix3 (batchOf t) (0 : Fin 1) i) := by
  obtain ⟨-, ⟨e0, e1, e2⟩, -⟩ := index_maps t
  show V m c main_v34 (((cfg0.win 1).blk t).view.emb (ix3 u v i)) = _
  refine congrArg (V m c main_v34) (funext fun a => Fin.ext ?_)
  match a with
  | ⟨0, _⟩ => show win0_1.index t (0 : Fin 3) * 1 + 1 * u.val = t.val; omega
  | ⟨1, _⟩ => show win0_1.index t (1 : Fin 3) * 1 + 1 * v.val = 0; omega
  | ⟨2, _⟩ => show win0_1.index t (2 : Fin 3) * 2048 + 1 * i.val = i.val; omega

theorem key_block_apply (c : Dev nD) (t : Fin cfg0.N) (u v : Fin 1) (i : Fin 2048) :
    iblk m c 2 t (ix3 u v i) = V m c main_v35 (ix3 (batchOf t) (0 : Fin 1) i) := by
  obtain ⟨-, -, ⟨e0, e1, e2⟩, -⟩ := index_maps t
  show V m c main_v35 (((cfg0.win 2).blk t).view.emb (ix3 u v i)) = _
  refine congrArg (V m c main_v35) (funext fun a => Fin.ext ?_)
  match a with
  | ⟨0, _⟩ => show win0_2.index t (0 : Fin 3) * 1 + 1 * u.val = t.val; omega
  | ⟨1, _⟩ => show win0_2.index t (1 : Fin 3) * 1 + 1 * v.val = 0; omega
  | ⟨2, _⟩ => show win0_2.index t (2 : Fin 3) * 2048 + 1 * i.val = i.val; omega

theorem gate_block_apply (c : Dev nD) (t : Fin cfg0.N) (u v w : Fin 1) :
    iblk m c 3 t (ix3 u v w) = V m c main_v36 (ix3 (batchOf t) (0 : Fin 1) (0 : Fin 1)) := by
  obtain ⟨-, -, -, ⟨e0, e1, e2⟩, -⟩ := index_maps t
  show V m c main_v36 (((cfg0.win 3).blk t).view.emb (ix3 u v w)) = _
  refine congrArg (V m c main_v36) (funext fun a => Fin.ext ?_)
  match a with
  | ⟨0, _⟩ => show win0_3.index t (0 : Fin 3) * 1 + 1 * u.val = t.val; omega
  | ⟨1, _⟩ => show win0_3.index t (1 : Fin 3) * 1 + 1 * v.val = 0; omega
  | ⟨2, _⟩ => show win0_3.index t (2 : Fin 3) * 1 + 1 * w.val = 0; omega

/-! ## The three specifications at an index given by coordinates -/

theorem newMatrices_apply (A0 : FVec Ideal S32x2048x2048 .f32) (A1 A2 : FVec Ideal S32x1x2048 .f32) (A3 : FVec Ideal S32x1x1 .f32)
    (b : Fin 32) (i j : Fin 2048) :
    newMatrices A0 A1 A2 A3 (ix3 b i j) = A0 (ix3 b i j) + updateVec A0 A1 A2 A3 b i * A2 (ix3 b (0 : Fin 1) j) := rfl

theorem rowSums_apply (A0 : FVec Ideal S32x2048x2048 .f32) (b : Fin 32) (u : Fin 1) (i : Fin 2048) :
    rowSums A0 (ix3 b u i) = ∑ j : Fin 2048, A0 (ix3 b i j) := rfl

theorem updateVecs_apply (A0 : FVec Ideal S32x2048x2048 .f32) (A1 A2 : FVec Ideal S32x1x2048 .f32) (A3 : FVec Ideal S32x1x1 .f32)
    (b : Fin 32) (u : Fin 1) (i : Fin 2048) :
    updateVecs A0 A1 A2 A3 (ix3 b u i) = updateVec A0 A1 A2 A3 b i := rfl

/-! ## Where an output block's entries lie in its array -/

theorem matrix_out_emb (t : Fin cfg0.N) (u : Fin 1) (i j : Fin 2048) :
    ((cfg0.win 4).blk t).view.emb (ix3 u i j) = ix3 (batchOf t) i j := by
  obtain ⟨-, -, -, -, ⟨e0, e1, e2⟩, -⟩ := index_maps t
  refine funext fun a => Fin.ext ?_
  match a with
  | ⟨0, _⟩ => show win0_4.index t (0 : Fin 3) * 1 + 1 * u.val = t.val; omega
  | ⟨1, _⟩ => show win0_4.index t (1 : Fin 3) * 2048 + 1 * i.val = i.val; omega
  | ⟨2, _⟩ => show win0_4.index t (2 : Fin 3) * 2048 + 1 * j.val = j.val; omega

theorem sums_out_emb (t : Fin cfg0.N) (u v : Fin 1) (i : Fin 2048) :
    ((cfg0.win 5).blk t).view.emb (ix3 u v i) = ix3 (batchOf t) (0 : Fin 1) i := by
  obtain ⟨-, -, -, -, -, ⟨e0, e1, e2⟩, -⟩ := index_maps t
  refine funext fun a => Fin.ext ?_
  match a with
  | ⟨0, _⟩ => show win0_5.index t (0 : Fin 3) * 1 + 1 * u.val = t.val; omega
  | ⟨1, _⟩ => show win0_5.index t (1 : Fin 3) * 1 + 1 * v.val = 0; omega
  | ⟨2, _⟩ => show win0_5.index t (2 : Fin 3) * 2048 + 1 * i.val = i.val; omega

theorem update_out_emb (t : Fin cfg0.N) (u v : Fin 1) (i : Fin 2048) :
    ((cfg0.win 6).blk t).view.emb (ix3 u v i) = ix3 (batchOf t) (0 : Fin 1) i := by
  obtain ⟨-, -, -, -, -, -, ⟨e0, e1, e2⟩⟩ := index_maps t
  refine funext fun a => Fin.ext ?_
  match a with
  | ⟨0, _⟩ => show win0_6.index t (0 : Fin 3) * 1 + 1 * u.val = t.val; omega
  | ⟨1, _⟩ => show win0_6.index t (1 : Fin 3) * 1 + 1 * v.val = 0; omega
  | ⟨2, _⟩ => show win0_6.index t (2 : Fin 3) * 2048 + 1 * i.val = i.val; omega

/-! ## What point `t` writes back -/

/-- Point `t` writes back, to the matrices' window, block `t` of the updated matrices. -/
theorem flushed_matrices (c : Dev nD) (t : Fin cfg0.N) :
    (dats m 0 c).flushed 4 t
      = ((cfg0.win 4).blk t).view.read (Elt Ideal)
          (newMatrices (V m c main_arg1) (V m c main_v34) (V m c main_v35) (V m c main_v36)) := by
  show (cfg0.win 4).cut (grid0.coords t) ((dats m 0 c).after 4 t) = _
  rw [after0_4]
  unfold out0_4
  rw [View.canon_unit_zero zero_offsets]
  simp only [View.ld_unit_zero (S := S1x2048x2048) zero_offsets, View.ld_unit_zero (S := S1x1x2048) zero_offsets,
    View.ld_unit_zero (S := S1x1x1) zero_offsets]
  refine funext fun (y : S1x2048x2048.Idx) => ?_
  obtain ⟨u, i, j, rfl⟩ : ∃ (u : Fin 1) (i j : Fin 2048), y = ix3 u i j := ⟨y 0, y 1, y 2, eq_ix3 y⟩
  obtain rfl : u = 0 := Subsingleton.elim u 0
  show k0_pay4 (iblk m c 0 t) (iblk m c 2 t) (iblk m c 1 t) (iblk m c 3 t) (ix3 (0 : Fin 1) i j)
      = newMatrices _ _ _ _ (((cfg0.win 4).blk t).view.emb (ix3 (0 : Fin 1) i j))
  rw [matrix_out_emb, newMatrices_apply,
    Body.new_slab_apply (iblk m c 0 t) (iblk m c 2 t) (iblk m c 1 t) (iblk m c 3 t) i j,
    Body.update_vector_apply (iblk m c 0 t) (iblk m c 2 t) (iblk m c 1 t) (iblk m c 3 t) i]
  simp only [matrix_block_apply, value_block_apply, key_block_apply, gate_block_apply]
  rfl

/-- Point `t` writes back, to the row sums' window, block `t` of the row sums. -/
theorem flushed_sums (c : Dev nD) (t : Fin cfg0.N) :
    (dats m 0 c).flushed 5 t = ((cfg0.win 5).blk t).view.read (Elt Ideal) (rowSums (V m c main_arg1)) := by
  show (cfg0.win 5).cut (grid0.coords t) ((dats m 0 c).after 5 t) = _
  rw [after0_5]
  unfold out0_5
  rw [View.canon_unit_zero zero_offsets]
  simp only [View.ld_unit_zero (S := S1x2048x2048) zero_offsets]
  refine funext fun (y : S1x1x2048.Idx) => ?_
  obtain ⟨u, v, i, rfl⟩ : ∃ (u v : Fin 1) (i : Fin 2048), y = ix3 u v i := ⟨y 0, y 1, y 2, eq_ix3 y⟩
  obtain rfl : u = 0 := Subsingleton.elim u 0
  obtain rfl : v = 0 := Subsingleton.elim v 0
  show k0_pay1 (iblk m c 0 t) (ix3 (0 : Fin 1) (0 : Fin 1) i) = rowSums _ (((cfg0.win 5).blk t).view.emb (ix3 (0 : Fin 1) (0 : Fin 1) i))
  rw [sums_out_emb, rowSums_apply, Body.row_sums_apply (iblk m c 0 t) i]
  simp only [matrix_block_apply]

/-- Point `t` writes back, to the update vectors' window, block `t` of the update vectors. -/
theorem flushed_updates (c : Dev nD) (t : Fin cfg0.N) :
    (dats m 0 c).flushed 6 t
      = ((cfg0.win 6).blk t).view.read (Elt Ideal)
          (updateVecs (V m c main_arg1) (V m c main_v34) (V m c main_v35) (V m c main_v36)) := by
  show (cfg0.win 6).cut (grid0.coords t) ((dats m 0 c).after 6 t) = _
  rw [after0_6]
  unfold out0_6
  rw [View.canon_unit_zero zero_offsets]
  simp only [View.ld_unit_zero (S := S1x2048x2048) zero_offsets, View.ld_unit_zero (S := S1x1x2048) zero_offsets,
    View.ld_unit_zero (S := S1x1x1) zero_offsets]
  refine funext fun (y : S1x1x2048.Idx) => ?_
  obtain ⟨u, v, i, rfl⟩ : ∃ (u v : Fin 1) (i : Fin 2048), y = ix3 u v i := ⟨y 0, y 1, y 2, eq_ix3 y⟩
  obtain rfl : u = 0 := Subsingleton.elim u 0
  obtain rfl : v = 0 := Subsingleton.elim v 0
  show k0_pay3 (iblk m c 0 t) (iblk m c 2 t) (iblk m c 1 t) (iblk m c 3 t) (ix3 (0 : Fin 1) (0 : Fin 1) i)
      = updateVecs _ _ _ _ (((cfg0.win 6).blk t).view.emb (ix3 (0 : Fin 1) (0 : Fin 1) i))
  rw [update_out_emb, updateVecs_apply,
    Body.update_vector_apply (iblk m c 0 t) (iblk m c 2 t) (iblk m c 1 t) (iblk m c 3 t) i]
  simp only [matrix_block_apply, value_block_apply, key_block_apply, gate_block_apply]
  rfl

/-! ## The 32 blocks tile each output array -/

theorem mem_matrix_block (t : Fin cfg0.N) (i : S32x2048x2048.Idx) :
    i ∈ ((cfg0.win 4).blk t).view.set ↔ ∀ a : Fin 3, win0_4.index t a * S1x2048x2048.size a ≤ (i a).val
      ∧ (i a).val < win0_4.index t a * S1x2048x2048.size a + S1x2048x2048.size a := by
  show i ∈ ((View.whole main_v37_0).slice (win0_4.rect t)).set ↔ _
  rw [View.set_slice_whole, Rect.mem_set_unit]
  exact Iff.rfl

theorem mem_sums_block (t : Fin cfg0.N) (i : S32x1x2048.Idx) :
    i ∈ ((cfg0.win 5).blk t).view.set ↔ ∀ a : Fin 3, win0_5.index t a * S1x1x2048.size a ≤ (i a).val
      ∧ (i a).val < win0_5.index t a * S1x1x2048.size a + S1x1x2048.size a := by
  show i ∈ ((View.whole main_v37_1).slice (win0_5.rect t)).set ↔ _
  rw [View.set_slice_whole, Rect.mem_set_unit]
  exact Iff.rfl

theorem mem_update_block (t : Fin cfg0.N) (i : S32x1x2048.Idx) :
    i ∈ ((cfg0.win 6).blk t).view.set ↔ ∀ a : Fin 3, win0_6.index t a * S1x1x2048.size a ≤ (i a).val
      ∧ (i a).val < win0_6.index t a * S1x1x2048.size a + S1x1x2048.size a := by
  show i ∈ ((View.whole main_v37_2).slice (win0_6.rect t)).set ↔ _
  rw [View.set_slice_whole, Rect.mem_set_unit]
  exact Iff.rfl

/-- The point whose block holds an index: the one numbered by the index's batch coordinate. -/
def pointOf (b : Nat) (hb : b < 32) : Fin cfg0.N := ⟨b, lt_of_lt_of_eq hb N_0.symm⟩

theorem matrices_covered (i : S32x2048x2048.Idx) :
    ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 2048 := (i 2).isLt
  obtain ⟨-, -, -, -, ⟨e0, e1, e2⟩, -⟩ := index_maps (pointOf (i 0).val h0)
  have et : (pointOf (i 0).val h0).val = (i 0).val := rfl
  refine ⟨pointOf (i 0).val h0, flush0_4 _, ?_⟩
  rw [mem_matrix_block]
  intro a
  match a with
  | ⟨0, _⟩ =>
    show win0_4.index (pointOf (i 0).val h0) (0 : Fin 3) * 1 ≤ (i 0).val
      ∧ (i 0).val < win0_4.index (pointOf (i 0).val h0) (0 : Fin 3) * 1 + 1
    omega
  | ⟨1, _⟩ =>
    show win0_4.index (pointOf (i 0).val h0) (1 : Fin 3) * 2048 ≤ (i 1).val
      ∧ (i 1).val < win0_4.index (pointOf (i 0).val h0) (1 : Fin 3) * 2048 + 2048
    omega
  | ⟨2, _⟩ =>
    show win0_4.index (pointOf (i 0).val h0) (2 : Fin 3) * 2048 ≤ (i 2).val
      ∧ (i 2).val < win0_4.index (pointOf (i 0).val h0) (2 : Fin 3) * 2048 + 2048
    omega

theorem sums_covered (i : S32x1x2048.Idx) :
    ∃ t : Fin cfg0.N, (cfg0.win 5).flush t = true ∧ i ∈ ((cfg0.win 5).blk t).view.set := by
  have h0 : (i 0).val < 32 := (i 0).isLt
  have h1 : (i 1).val < 1 := (i 1).isLt
  have h2 : (i 2).val < 2048 := (i 2).isLt
  obtain ⟨-, -, -, -, -, ⟨e0, e1, e2⟩, -⟩ := index_maps (pointOf (i 0).val h0)
  have et : (pointOf (i 0).val h0).val = (i 0).val := rfl
  refine ⟨pointOf (i 0).val h0, flush0_5 _, ?_⟩
  rw [mem_sums_block]
  intro a
  match a with
  | ⟨0, _⟩ =>
    show win0_5.index (pointOf (i 0).val h0) (0 : Fin 3) * 1 ≤ (i 0).val
      ∧ (i 0).val < win0_5.index (pointOf (i 0).val h0) (0 : Fin 3) * 1 + 1
    omega
  | ⟨1, _⟩ =>
    show win0_5.index (pointOf (i 0).val h0) (1 : Fin 3) * 1 ≤ (i 1).val
      ∧ (i 1).val < win0_5.index (pointOf (i 0).val h0) (1 : Fin 3) * 1 + 1
    omega
  | ⟨2, _⟩ =>
    show win0_5.index (pointOf (i 0).val h0) (2 : Fin 3) * 2048 ≤ (i 2).val
      ∧ (i 2).val < win0_5.index (pointOf (i 0).val h0) (2 : Fin 3) * 2048 + 2048
    omega

theorem updates_covered (i : S32x1x2048.Idx) :
    ∃ t : Fin cfg0.N, (cfg0.win 6).flush t = true ∧ i ∈ ((cfg0.win 6).blk t).view.set := by
  have h0 : (i 0).val < 32 := (i 0).isLt
  have h1 : (i 1).val < 1 := (i 1).isLt
  have h2 : (i 2).val < 2048 := (i 2).isLt
  obtain ⟨-, -, -, -, -, -, ⟨e0, e1, e2⟩⟩ := index_maps (pointOf (i 0).val h0)
  have et : (pointOf (i 0).val h0).val = (i 0).val := rfl
  refine ⟨pointOf (i 0).val h0, flush0_6 _, ?_⟩
  rw [mem_update_block]
  intro a
  match a with
  | ⟨0, _⟩ =>
    show win0_6.index (pointOf (i 0).val h0) (0 : Fin 3) * 1 ≤ (i 0).val
      ∧ (i 0).val < win0_6.index (pointOf (i 0).val h0) (0 : Fin 3) * 1 + 1
    omega
  | ⟨1, _⟩ =>
    show win0_6.index (pointOf (i 0).val h0) (1 : Fin 3) * 1 ≤ (i 1).val
      ∧ (i 1).val < win0_6.index (pointOf (i 0).val h0) (1 : Fin 3) * 1 + 1
    omega
  | ⟨2, _⟩ =>
    show win0_6.index (pointOf (i 0).val h0) (2 : Fin 3) * 2048 ≤ (i 2).val
      ∧ (i 2).val < win0_6.index (pointOf (i 0).val h0) (2 : Fin 3) * 2048 + 2048
    omega

/-! ## The three output arrays after the run -/

theorem final_matrices (c : Dev nD) :
    (dats m 0 c).arrAt 4 cfg0.N = newMatrices (V m c main_arg1) (V m c main_v34) (V m c main_v35) (V m c main_v36) :=
  (dats m 0 c).arrAt_eq_of_cover 4 _ (fun t _ => flushed_matrices m c t) matrices_covered

theorem final_sums (c : Dev nD) : (dats m 0 c).arrAt 5 cfg0.N = rowSums (V m c main_arg1) :=
  (dats m 0 c).arrAt_eq_of_cover 5 _ (fun t _ => flushed_sums m c t) sums_covered

theorem final_updates (c : Dev nD) :
    (dats m 0 c).arrAt 6 cfg0.N = updateVecs (V m c main_arg1) (V m c main_v34) (V m c main_v35) (V m c main_v36) :=
  (dats m 0 c).arrAt_eq_of_cover 6 _ (fun t _ => flushed_updates m c t) updates_covered

end Cert.KernelIdeal.Blocks

end
-- ==== Proof.KernelHost.lean ====
/-
  The host lines around the region.

  BEFORE the region the program computes, from its arguments, the value rows, the gates and the two feature maps, and
  lays the value rows, the key features and the gates out as the [32, 1, 2048], [32, 1, 2048] and [32, 1, 1] arrays the
  region's windows read. The stages are the same functions of the arguments as the reference's, so they are named by
  the reference's stage functions. This module reads the two short ones (the value rows' and the gates' arrays).

  AFTER the region the program reads the row sums `s` and the update vectors `d` the region wrote (each [32, 1, 2048]),
  drops their unit axis, and forms  `q b i * (s b i + d b i * (0 + ∑ j, kp b j))`  — the output before its last
  projection —, then multiplies by the output weights and adds the output bias. The last two steps are the same in
  both programs and are carried as one function, never opened.
-/
import proofs.«126555_j12223476924536_2_alg».proof.Proof.Gen.KernelIdeal.Frame
import proofs.«126555_j12223476924536_2_alg».proof.Proof.Gen.ReferenceIdeal.Read
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Host

open Idealize.ShloMosaic Idealize.ShloMosaic.TcCoe Idealize.SL.Sem Idealize.ShloMosaic.ValueIdx Cert.KernelIdeal Cert.KernelIdeal.Gen
open Cert.ReferenceIdeal.Read

/-! ## The lines after the region, as functions of what they read -/

/-- The last projection: times the output weights, plus the output bias (the same lines in both programs). -/
def project (X : FVec Ideal S32x2048 .f32) (wo : FVec Ideal S2048x1024 .f32) (bo : FVec Ideal S1024 .f32) : FVec Ideal S32x1024 .f32 :=
  addf (Host.dotGeneral (F := Ideal) dot_S32x2048_S2048x1024_S32x1024_1_0_0_1_n_n none X wo)
    (broadcastInDim S32x1024 ![0, 1] bcast_S1x1024_S32x1024_0_1 (broadcastInDim S1x1024 ![1] bcast_S1024_S1x1024_1 bo))

/-- The output before the last projection, from the query features `q`, the region's row sums and update vectors, and
    the key features `kp`. -/
def preProjection (q : FVec Ideal S32x2048 .f32) (sums upd : FVec Ideal S32x1x2048 .f32) (kp : FVec Ideal S32x2048 .f32) :
    FVec Ideal S32x2048 .f32 :=
  mulf q (addf (shapeCast S32x2048 sums shapeCasts_S32x1x2048_S32x2048)
    (mulf (shapeCast S32x2048 upd shapeCasts_S32x1x2048_S32x2048)
      (broadcastInDim S32x2048 ![0, 1] bcast_S32x1_S32x2048_0_1 (broadcastInDim S32x1 ![0] bcast_S32_S32x1_0
        (Host.reduceAdd (F := Ideal) kp (constant (F := Ideal) S_ .f32 0x00000000#32) reducesTo_S32x2048_S32_d1 h_S_)))))

/-- A [32, 1, 2048] array with its unit axis dropped reads, at `(b, i)`, the array at `(b, 0, i)`. -/
theorem drop_unit_apply (x : FVec Ideal S32x1x2048 .f32) (h : S32x1x2048.ShapeCasts S32x2048) (b : Fin 32) (i : Fin 2048) :
    shapeCast S32x2048 x h (ix2 b i) = x (ix3 b (0 : Fin 1) i) :=
  shapeCast_apply x h _ _ (by
    rw [Shape.rowMajor_val_three, Shape.rowMajor_val_two]
    show (b.val * 1 + 0) * 2048 + i.val = b.val * 2048 + i.val
    omega)

/-- The sum of each row of a [32, 2048] array, broadcast back along the row: at `(b, i)`, `0 + ∑ j, kp b j`. -/
theorem row_total_apply (kp : FVec Ideal S32x2048 .f32) (b : Fin 32) (i : Fin 2048) :
    broadcastInDim S32x2048 ![0, 1] bcast_S32x1_S32x2048_0_1 (broadcastInDim S32x1 ![0] bcast_S32_S32x1_0
        (Host.reduceAdd (F := Ideal) kp (constant (F := Ideal) S_ .f32 0x00000000#32) reducesTo_S32x2048_S32_d1 h_S_)) (ix2 b i)
      = 0 + ∑ j : Fin 2048, kp (ix2 b j) := by
  rw [broadcastInDim_apply _ bcast_S32x1_S32x2048_0_1 _ (ix2 b i) (ix2 b (0 : Fin 1)) (fun a => by
      match a with
      | ⟨0, _⟩ => rfl
      | ⟨1, _⟩ => rfl),
    broadcastInDim_apply _ bcast_S32_S32x1_0 _ (ix2 b (0 : Fin 1)) (ix1 b) (fun a => by
      match a with
      | ⟨0, _⟩ => rfl)]
  simp only [Host.reduceAdd, Ideal.hostReduceAdd_def]
  rw [Ideal.hostReduceAdd_single reducesTo_S32x2048_S32_d1 (by decide)]
  show Ideal.ofBits .f32 0x00000000#32 + _ = _
  rw [Ideal.ofBits_zero_f32]
  refine congrArg (0 + ·) (Finset.sum_congr rfl fun j _ => congrArg kp (funext fun a => Fin.ext ?_))
  match a with
  | ⟨0, _⟩ => rfl
  | ⟨1, _⟩ => rfl

/-- The output before the last projection, at `(b, i)`. -/
theorem preProjection_apply (q : FVec Ideal S32x2048 .f32) (sums upd : FVec Ideal S32x1x2048 .f32) (kp : FVec Ideal S32x2048 .f32)
    (b : Fin 32) (i : Fin 2048) :
    preProjection q sums upd kp (ix2 b i)
      = q (ix2 b i) * (sums (ix3 b (0 : Fin 1) i) + upd (ix3 b (0 : Fin 1) i) * (0 + ∑ j : Fin 2048, kp (ix2 b j))) := by
  unfold preProjection
  rw [mulf_apply, addf_apply, mulf_apply, drop_unit_apply, drop_unit_apply, row_total_apply]

/-! ## The three arrays the region's windows read, over the shared stages -/

/-- An `f32` array of shape `S` at the ideal values, as the generated stage functions take their arguments. -/
abbrev Arr (S : Shape) : Type := (⟨S, .f32⟩ : BufTy).Contents (Elt Ideal)

/-- The value rows with a unit axis in the middle, as the region's value window holds them. -/
abbrev valueArr (x0 : Arr Cert.ReferenceIdeal.S32x1024) (x6 : Arr Cert.ReferenceIdeal.S1024x2048) (x7 : Arr Cert.ReferenceIdeal.S2048) :
    FVec Ideal S32x1x2048 .f32 :=
  broadcastInDim S32x1x2048 ![0, 2] bcast_S32x2048_S32x1x2048_0_2 (val_main_v11 (F := Ideal) x0 x6 x7)

/-- The key features with a unit axis in the middle, as the region's key window holds them. -/
abbrev keyArr (x0 : Arr Cert.ReferenceIdeal.S32x1024) (x4 : Arr Cert.ReferenceIdeal.S1024x1024) (x5 : Arr Cert.ReferenceIdeal.S1024) :
    FVec Ideal S32x1x2048 .f32 :=
  broadcastInDim S32x1x2048 ![0, 2] bcast_S32x2048_S32x1x2048_0_2 (val_main_v27 (F := Ideal) x0 x4 x5)

/-- The gates with a unit axis in the middle, as the region's gate window holds them. -/
abbrev gateArr (x0 : Arr Cert.ReferenceIdeal.S32x1024) (x10 : Arr Cert.ReferenceIdeal.S1024x1) (x11 : Arr Cert.ReferenceIdeal.S1) :
    FVec Ideal S32x1x1 .f32 :=
  broadcastInDim S32x1x1 ![0, 2] bcast_S32x1_S32x1x1_0_2 (val_main_v21 (F := Ideal) x0 x10 x11)

variable (m : (ℓ : Loc nD τ sig) → Buf (Elt Ideal) ℓ) (c : Dev nD)

/-! ## Two of the windows' arrays as the region finds them -/

set_option maxHeartbeats 4000000 in
/-- The value rows' array: the value stage with a unit axis in the middle. -/
theorem value_window :
    V m c main_v34 = valueArr (m ((c : Thread nD τ).loc main_arg0)) (m ((c : Thread nD τ).loc main_arg6)) (m ((c : Thread nD τ).loc main_arg7)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

set_option maxHeartbeats 4000000 in
/-- The gates' array: the gate stage with a unit axis in the middle. -/
theorem gate_window :
    V m c main_v36 = gateArr (m ((c : Thread nD τ).loc main_arg0)) (m ((c : Thread nD τ).loc main_arg10)) (m ((c : Thread nD τ).loc main_arg11)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

/-- A [32, n] array given a unit axis in the middle reads, at `(b, 0, i)`, the array at `(b, i)`. -/
theorem add_unit_apply {n : Nat} (x : FVec Ideal ⟨2, ![32, n]⟩ .f32) (h : (⟨2, ![32, n]⟩ : Shape).BroadcastsInDim ⟨3, ![32, 1, n]⟩ ![0, 2])
    (b : Fin 32) (u : Fin 1) (i : Fin n) :
    broadcastInDim ⟨3, ![32, 1, n]⟩ ![0, 2] h x (ix3 b u i) = x (ix2 b i) :=
  broadcastInDim_apply _ h x (ix3 b u i) (ix2 b i) (fun a => by
    match a with
    | ⟨0, _⟩ => rfl
    | ⟨1, _⟩ =>
      show i.val = if n = 1 then 0 else i.val
      split
      · have := i.isLt; omega
      · rfl)

/-! ## The first result: the lines after the region -/

set_option maxHeartbeats 4000000 in
/-- What the program returns first: the last projection of the output formed from the query features and the key
    features as the region finds them and the row sums and update vectors as the region leaves them. -/
theorem after_region :
    Pipeline.afterTail₀ cfgs (dats m) 0 (V0 m) [hostOps1] c main_v49
      = project (preProjection (V0 m c (Proc.devRef .tc main_v33)) ((dats m 0 c).arrAt 5 cfg0.N) ((dats m 0 c).arrAt 6 cfg0.N)
            (V0 m c (Proc.devRef .tc main_v27)))
          (m ((c : Thread nD τ).loc main_arg8)) (m ((c : Thread nD τ).loc main_arg9)) := by
  unfold Pipeline.afterTail₀
  show StableHlo.after hostOps1 _ (Proc.devRef .tc main_v49) = _
  after_results
  rw [Pipeline.withArrays_of_ne _ c (V0 m c) _ main_v33 (by exact (by decide : ∀ w, Pipeline.arrRef spec0 w ≠ main_v33)),
    Pipeline.withArrays_of_ne _ c (V0 m c) _ main_v27 (by exact (by decide : ∀ w, Pipeline.arrRef spec0 w ≠ main_v27)),
    Pipeline.withArrays_of_ne _ c (V0 m c) _ main_arg8 (by exact (by decide : ∀ w, Pipeline.arrRef spec0 w ≠ main_arg8)),
    Pipeline.withArrays_of_ne _ c (V0 m c) _ main_arg9 (by exact (by decide : ∀ w, Pipeline.arrRef spec0 w ≠ main_arg9))]
  have h5 : Pipeline.withArrays (cfgs 0).spec c (V0 m c) (fun w => (dats m 0 c).arrAt w (cfgs 0).N) (Proc.devRef .tc main_v37_1)
      = (dats m 0 c).arrAt 5 cfg0.N := Pipeline.withArrays_arr spec0 launch0.win.arr_inj c _ _ 5
  have h6 : Pipeline.withArrays (cfgs 0).spec c (V0 m c) (fun w => (dats m 0 c).arrAt w (cfgs 0).N) (Proc.devRef .tc main_v37_2)
      = (dats m 0 c).arrAt 6 cfg0.N := Pipeline.withArrays_arr spec0 launch0.win.arr_inj c _ _ 6
  rw [h5, h6, show V0 m c (Proc.devRef .tc main_arg8) = (m ((c : Thread nD τ).loc main_arg8)) from V_main_arg8 m c,
    show V0 m c (Proc.devRef .tc main_arg9) = (m ((c : Thread nD τ).loc main_arg9)) from V_main_arg9 m c]
  rfl

end Cert.KernelIdeal.Host

end
-- ==== Proof.KernelHostKey.lean ====
/-
  The key features before the region.

  From the arguments the program forms the keys `k = x Wk + bk`, clamps `k` and `-k` below at zero, lays the two side by
  side as `z`, rotates `z` by one place and multiplies: `kp = z * rotate z`. These are the same lines as the reference's,
  so the result is named by the reference's stage function. The region reads `kp` with a unit axis in the middle (its
  key window's array); the lines after the region read `kp` itself.
-/
import proofs.«126555_j12223476924536_2_alg».proof.Proof.Gen.KernelIdeal.Frame
import proofs.«126555_j12223476924536_2_alg».proof.Proof.Gen.ReferenceIdeal.Read
import Idealize.ShloMosaic.Lib.StableHlo.Run
import Idealize.ShloMosaic.PureOps.Ideal.Laws

noncomputable section

namespace Cert.KernelIdeal.Host

open Idealize.ShloMosaic Idealize.ShloMosaic.TcCoe Idealize.SL.Sem Cert.KernelIdeal Cert.KernelIdeal.Gen
open Cert.ReferenceIdeal.Read

variable (m : (ℓ : Loc nD τ sig) → Buf (Elt Ideal) ℓ) (c : Dev nD)

set_option maxHeartbeats 16000000 in
/-- The key features as the lines after the region find them. -/
theorem key_features :
    V0 m c (Proc.devRef .tc main_v27) = val_main_v27 (F := Ideal) (m ((c : Thread nD τ).loc main_arg0)) (m ((c : Thread nD τ).loc main_arg4)) (m ((c : Thread nD τ).loc main_arg5)) := by
  dsimp only [V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

set_option maxHeartbeats 16000000 in
/-- The key window's array: the key features with a unit axis in the middle. -/
theorem key_window :
    V m c main_v35 = broadcastInDim S32x1x2048 ![0, 2] bcast_S32x2048_S32x1x2048_0_2
      (val_main_v27 (F := Ideal) (m ((c : Thread nD τ).loc main_arg0)) (m ((c : Thread nD τ).loc main_arg4)) (m ((c : Thread nD τ).loc main_arg5))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

end Cert.KernelIdeal.Host

end
-- ==== Proof.KernelHostQuery.lean ====
/-
  The query features before the region.

  The queries `q = x Wq + bq` go through the same feature map as the keys: clamp `q` and `-q` below at zero, lay them side
  by side, rotate by one place, multiply. The same lines as the reference's, so the result is named by the reference's
  stage function. Only the lines after the region read it.
-/
import proofs.«126555_j12223476924536_2_alg».proof.Proof.Gen.KernelIdeal.Frame
import proofs.«126555_j12223476924536_2_alg».proof.Proof.Gen.ReferenceIdeal.Read
import Idealize.ShloMosaic.Lib.StableHlo.Run
import Idealize.ShloMosaic.PureOps.Ideal.Laws

noncomputable section

namespace Cert.KernelIdeal.Host

open Idealize.ShloMosaic Idealize.ShloMosaic.TcCoe Idealize.SL.Sem Cert.KernelIdeal Cert.KernelIdeal.Gen
open Cert.ReferenceIdeal.Read

variable (m : (ℓ : Loc nD τ sig) → Buf (Elt Ideal) ℓ) (c : Dev nD)

set_option maxHeartbeats 16000000 in
/-- The query features as the lines after the region find them. -/
theorem query_features :
    V0 m c (Proc.devRef .tc main_v33) = val_main_v44 (F := Ideal) (m ((c : Thread nD τ).loc main_arg0)) (m ((c : Thread nD τ).loc main_arg2)) (m ((c : Thread nD τ).loc main_arg3)) := by
  dsimp only [V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

end Cert.KernelIdeal.Host

end
-- ==== Proof.KernelRun.lean ====
/-
  The idealized kernel's run, read back.

  Every weakly fair execution of the program ends with its two results at named functions of the memory it was launched
  from, and its arguments unchanged:
    * the second result (the region's first output array) holds the updated matrices;
    * the first result is the last projection of  `q b i * (s b i + d b i * (0 + ∑ j, kp b j))`, where `s` and `d` are the
      row sums and the update vectors the region wrote, and `q`, `kp` the query and key features.
  All of them are stated over the stages the two programs share, the three arrays the region's windows read being those
  stages with a unit axis in the middle.
-/
import proofs.«126555_j12223476924536_2_alg».proof.Proof.Gen.KernelIdeal.Frame
import proofs.«126555_j12223476924536_2_alg».proof.Proof.KernelBlocks
import proofs.«126555_j12223476924536_2_alg».proof.Proof.KernelHost
import proofs.«126555_j12223476924536_2_alg».proof.Proof.KernelHostKey
import proofs.«126555_j12223476924536_2_alg».proof.Proof.KernelHostQuery

noncomputable section

namespace Cert.KernelIdeal.RunValue

open Idealize.ShloMosaic Idealize.ShloMosaic.TcCoe Idealize.SL.Sem Cert.KernelIdeal Cert.KernelIdeal.Gen
open Cert.ReferenceIdeal.Read Cert.KernelIdeal.Host

variable (m : (ℓ : Loc nD τ sig) → Buf (Elt Ideal) ℓ) (ρ : Dev nD → PrngReg)

/-- The updated matrices, over core `c`'s launch memory. -/
def matricesOut (c : Dev nD) : FVec Ideal S32x2048x2048 .f32 :=
  Blocks.newMatrices (m ((c : Thread nD τ).loc main_arg1)) (valueArr (m ((c : Thread nD τ).loc main_arg0)) (m ((c : Thread nD τ).loc main_arg6)) (m ((c : Thread nD τ).loc main_arg7))) (keyArr (m ((c : Thread nD τ).loc main_arg0)) (m ((c : Thread nD τ).loc main_arg4)) (m ((c : Thread nD τ).loc main_arg5)))
    (gateArr (m ((c : Thread nD τ).loc main_arg0)) (m ((c : Thread nD τ).loc main_arg10)) (m ((c : Thread nD τ).loc main_arg11)))

/-- The output before its last projection, over core `c`'s launch memory. -/
def preOut (c : Dev nD) : FVec Ideal S32x2048 .f32 :=
  preProjection (val_main_v44 (F := Ideal) (m ((c : Thread nD τ).loc main_arg0)) (m ((c : Thread nD τ).loc main_arg2)) (m ((c : Thread nD τ).loc main_arg3))) (Blocks.rowSums (m ((c : Thread nD τ).loc main_arg1)))
    (Blocks.updateVecs (m ((c : Thread nD τ).loc main_arg1)) (valueArr (m ((c : Thread nD τ).loc main_arg0)) (m ((c : Thread nD τ).loc main_arg6)) (m ((c : Thread nD τ).loc main_arg7))) (keyArr (m ((c : Thread nD τ).loc main_arg0)) (m ((c : Thread nD τ).loc main_arg4)) (m ((c : Thread nD τ).loc main_arg5)))
      (gateArr (m ((c : Thread nD τ).loc main_arg0)) (m ((c : Thread nD τ).loc main_arg10)) (m ((c : Thread nD τ).loc main_arg11))))
    (val_main_v27 (F := Ideal) (m ((c : Thread nD τ).loc main_arg0)) (m ((c : Thread nD τ).loc main_arg4)) (m ((c : Thread nD τ).loc main_arg5)))

/-- The region's first output array after the run is the updated matrices. -/
theorem matrices_final (c : Dev nD) : (dats m 0 c).arrAt 4 cfg0.N = matricesOut m c := by
  rw [Blocks.final_matrices, value_window, key_window, gate_window, V_main_arg1]
  rfl

/-- What the lines after the region leave in the first result. -/
theorem out_final (c : Dev nD) :
    Pipeline.afterTail₀ cfgs (dats m) 0 (V0 m) [hostOps1] c main_v49 = project (preOut m c) (m ((c : Thread nD τ).loc main_arg8)) (m ((c : Thread nD τ).loc main_arg9)) := by
  rw [after_region, query_features, key_features, Blocks.final_sums, Blocks.final_updates, value_window, key_window,
    gate_window, V_main_arg1]
  rfl

/-- The run: both results at their functions of the launch memory, the arguments unchanged. -/
theorem run : θ_run defs (onTc (τ := τ) (main (F := Ideal))) ⟨m, fun _ => 0, ρ⟩ fun r => ∀ c : Dev nD,
      r.2.mem ((c.tc : Thread nD τ).loc main_v49) = project (preOut m c) (m ((c : Thread nD τ).loc main_arg8)) (m ((c : Thread nD τ).loc main_arg9))
      ∧ r.2.mem ((c.tc : Thread nD τ).loc main_v37_0) = matricesOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨((h c).2 main_v49 (Pipeline.mem_restRefs_of main_v49 (by decide) (by decide))).trans (out_final m c),
      ((h c).1 4).trans (matrices_final m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩)
    (run_main m ρ)

end Cert.KernelIdeal.RunValue

end
-- ==== Proof.RankOneSum.lean ====
/-
  The one algebraic law of this certificate, on the extended reals.

  A row of the updated matrix is `w j + d * k j`: the old row `w` plus the row's scalar `d` times the key vector `k`.
  One program sums the updated row; the other sums the old row and the key vector separately and combines them as
  `(∑ w) + d * (∑ k)`. On the extended reals a factor does not move out of a sum in general (`d * (a + b)` and
  `d * a + d * b` differ when `a` and `b` are infinite of opposite signs), but it does when every term of the sum is
  nonnegative, and the key vector here is a product of two clamped values `max _ 0`, so it is nonnegative whatever the
  inputs are. No finiteness is used.
-/
import Idealize.ShloMosaic.PureOps.Ideal.Laws

namespace Cert.RankOneSum

open Finset

/-- A factor moves out of a finite sum of NONNEGATIVE extended reals. -/
theorem sum_mul_left_of_nonneg {ι : Type} (s : Finset ι) (d : EReal) (k : ι → EReal) (hk : ∀ j ∈ s, 0 ≤ k j) :
    ∑ j ∈ s, d * k j = d * ∑ j ∈ s, k j := by
  classical
  induction s using Finset.induction_on with
  | empty => simp
  | insert a s ha ih =>
    have hs : ∀ j ∈ s, 0 ≤ k j := fun j hj => hk j (Finset.mem_insert_of_mem hj)
    rw [Finset.sum_insert ha, Finset.sum_insert ha, ih hs,
      EReal.left_distrib_of_nonneg (hk a (Finset.mem_insert_self a s)) (Finset.sum_nonneg hs)]

/-- The sum of a row of the rank-one update `w + d • k` is the row's sum plus `d` times the sum of `k`, for `k ≥ 0`. -/
theorem sum_add_mul {ι : Type} [Fintype ι] (w k : ι → EReal) (d : EReal) (hk : ∀ j, 0 ≤ k j) :
    ∑ j, (w j + d * k j) = ∑ j, w j + d * ∑ j, k j := by
  rw [Finset.sum_add_distrib, sum_mul_left_of_nonneg _ d k fun j _ => hk j]

/-- The two spellings of one output entry: the updated row summed (from `0`) and scaled by `q` on the right, against `q`
    times the old row's sum plus `d` times the key vector's sum (the latter from `0`). -/
theorem row_out {ι : Type} [Fintype ι] (w k : ι → EReal) (d q : EReal) (hk : ∀ j, 0 ≤ k j) :
    (0 + ∑ j, (w j + d * k j)) * q = q * (∑ j, w j + d * (0 + ∑ j, k j)) := by
  rw [zero_add, zero_add, sum_add_mul w k d hk, mul_comm]

/-- A product of two values clamped below at `0` is nonnegative. -/
theorem max_zero_mul_max_zero_nonneg (a b : EReal) : 0 ≤ max a 0 * max b 0 :=
  EReal.mul_nonneg (le_max_right a 0) (le_max_right b 0)

end Cert.RankOneSum
-- ==== Proof.LibConcatenate.lean ====
/-
  A property of every entry of a concatenation.

  The concatenation of arrays along an axis reads, at every index, ONE of its pieces at some index of that piece. So a
  property that holds of every entry of every piece holds of every entry of the concatenation — whatever the axis, the
  number of pieces and their extents, and with no index arithmetic. (Used for an order property: a concatenation of
  nonnegative arrays is nonnegative; so is any re-arrangement of one array's entries made of slices and concatenations.)
-/
import Idealize.ShloMosaic.PureOps.ShapeOps

namespace Cert.LibConcatenate

open Idealize.ShloMosaic

/-- Every entry of a concatenation is an entry of one of its pieces: a property `P` of every entry of every piece is a
    property of every entry of the concatenation. -/
theorem concatenate_forall {α : Type} {t : Shape} (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

/-- The two-piece form, as a host program's `concatenate` of two operands prints. -/
theorem concatenate_pair_forall {α : Type} {t s₁ s₂ : Shape} (a : Fin t.rank) (x₁ : s₁.Idx → α) (x₂ : s₂.Idx → α)
    (h : Shape.Concatenates [s₁, s₂] t a) (P : α → Prop) (h₁ : ∀ i, P (x₁ i)) (h₂ : ∀ i, P (x₂ i)) (j : t.Idx) :
    P (concatenate t a [⟨s₁, x₁⟩, ⟨s₂, x₂⟩] h j) :=
  concatenate_forall a [⟨s₁, x₁⟩, ⟨s₂, x₂⟩] h P (fun p hp i => by
    simp only [List.mem_cons, List.mem_nil_iff, or_false] at hp
    rcases hp with rfl | rfl
    · exact h₁ i
    · exact h₂ i) j

end Cert.LibConcatenate
-- ==== Proof.ReferenceValue.lean ====
/-
  The reference, entry by entry, on the extended reals.

  Names for the stages the two programs share (each a function of the arguments, read through the generated stage
  functions): the value rows `v = x Wv + bv`, the gate `beta = 1 / (1 + exp (-(x Wb + bb)))`, and the two feature maps
  `kp`, `qp` of the keys and the queries — a vector `z = [max k 0, max (-k) 0]` times `z` rotated by one place.

    * Every entry of `kp` is a product of two clamped values, hence NONNEGATIVE: a concatenation, a slice and a rotation
      only re-arrange entries, and each entry of `z` is a `max _ 0`.
    * The new matrices at `(b, i, j)`: `W b i j + dv b i * kp b j`, `dv b i = beta b * (v b i - (∑ r, W b r i) * kp b i)`.
    * The output before its last projection at `(b, i)`: `(0 + ∑ j, (W b i j + dv b i * kp b j)) * qp b i`.
-/
import proofs.«126555_j12223476924536_2_alg».proof.Proof.Gen.ReferenceIdeal.Read
import proofs.«126555_j12223476924536_2_alg».proof.Proof.RankOneSum
import proofs.«126555_j12223476924536_2_alg».proof.Proof.LibConcatenate

noncomputable section

namespace Cert.ReferenceIdeal.RefValue

open Cert.ReferenceIdeal Cert.ReferenceIdeal.Gen Cert.ReferenceIdeal.Read Idealize.ShloMosaic Idealize.ShloMosaic.ValueIdx

/-- An `f32` array of shape `S` at the ideal values. -/
abbrev Arr (S : Shape) : Type := (⟨S, .f32⟩ : BufTy).Contents (Elt Ideal)

variable (x0 : Arr S32x1024) (x1 : Arr S32x2048x2048) (x2 : Arr S1024x1024) (x3 : Arr S1024) (x4 : Arr S1024x1024)
  (x5 : Arr S1024) (x6 : Arr S1024x2048) (x7 : Arr S2048) (x10 : Arr S1024x1) (x11 : Arr S1)

/-! ## The key feature map is nonnegative -/

/-- `z = [max k 0, max (-k) 0]`: every entry is a value clamped below at zero. -/
theorem clamped_nonneg (i : S32x2048.Idx) : (0 : EReal) ≤ val_main_v25 (F := Ideal) x0 x4 x5 i := by
  unfold val_main_v25
  refine Cert.LibConcatenate.concatenate_pair_forall _ _ _ _ (fun z : EReal => 0 ≤ z) (fun j => ?_) (fun j => ?_) i
  · rw [val_main_v22_apply, val_main_call0_v0_apply, val_main_call0_cst_apply]
    show (0 : EReal) ≤ max _ (Ideal.ofBits .f32 0x00000000#32)
    rw [Ideal.ofBits_zero_f32]
    exact le_max_right _ _
  · rw [val_main_v24_apply, val_main_call1_v0_apply, val_main_call1_cst_apply]
    show (0 : EReal) ≤ max _ (Ideal.ofBits .f32 0x00000000#32)
    rw [Ideal.ofBits_zero_f32]
    exact le_max_right _ _

/-- `z` rotated by one place along its rows: its last column in front of its first 2047; every entry is an entry of `z`. -/
theorem rotated_nonneg (i : S32x2048.Idx) : (0 : EReal) ≤ val_main_v26 (F := Ideal) x0 x4 x5 i := by
  unfold val_main_v26
  refine Cert.LibConcatenate.concatenate_pair_forall _ _ _ _ (fun z : EReal => 0 ≤ z) (fun j => ?_) (fun j => ?_) i
  · rw [val_main_call2_v0_apply]; exact clamped_nonneg x0 x4 x5 _
  · rw [val_main_call2_v1_apply]; exact clamped_nonneg x0 x4 x5 _

/-- The key feature map `kp = z * rotate z` is nonnegative, whatever the arguments hold. -/
theorem key_nonneg (i : S32x2048.Idx) : (0 : EReal) ≤ val_main_v27 (F := Ideal) x0 x4 x5 i := by
  rw [val_main_v27_apply]
  exact EReal.mul_nonneg (clamped_nonneg x0 x4 x5 i) (rotated_nonneg x0 x4 x5 i)

/-! ## The update vector and the new matrices at an index -/

/-- The update vector of batch element `b` at `i`, over the shared stages. -/
def updateVec (b : Fin 32) (i : Fin 2048) : EReal :=
  val_main_v21 (F := Ideal) x0 x10 x11 (ix2 b (0 : Fin 1))
    * (val_main_v11 (F := Ideal) x0 x6 x7 (ix2 b i)
        - (∑ r : Fin 2048, x1 (ix3 b r i)) * val_main_v27 (F := Ideal) x0 x4 x5 (ix2 b i))

/-- The reference's update vector stage at `(b, i)`. -/
theorem update_stage_apply (b : Fin 32) (i : Fin 2048) :
    val_main_v32 (F := Ideal) x0 x1 x4 x5 x6 x7 x10 x11 (ix2 b i) = updateVec x0 x1 x4 x5 x6 x7 x10 x11 b i := by
  have e31 : idx_main_v31 (ix2 b i) = ix2 b (0 : Fin 1) :=
    funext fun a => Fin.ext (by match a with | ⟨0, _⟩ => rfl | ⟨1, _⟩ => rfl)
  have e28 : ∀ r : Fin 2048, idx_main_v28 (ix2 b i) r = ix3 b r i := fun r =>
    funext fun a => Fin.ext (by match a with | ⟨0, _⟩ => rfl | ⟨1, _⟩ => rfl | ⟨2, _⟩ => rfl)
  rw [val_main_v32_apply, val_main_v31_apply, val_main_v30_apply, val_main_v29_apply, val_main_v28_apply, val_main_cst_1_apply, e31]
  simp only [e28]
  show _ * (_ - (Ideal.ofBits .f32 0x00000000#32 + _) * _) = _
  rw [Ideal.ofBits_zero_f32, zero_add]
  rfl

/-- The new matrices at `(b, i, j)`: the old entry plus the update vector at `i` times the key at `j`. -/
theorem new_matrices_apply (b : Fin 32) (i j : Fin 2048) :
    val_main_v38 (F := Ideal) x0 x1 x4 x5 x6 x7 x10 x11 (ix3 b i j)
      = x1 (ix3 b i j) + updateVec x0 x1 x4 x5 x6 x7 x10 x11 b i * val_main_v27 (F := Ideal) x0 x4 x5 (ix2 b j) := by
  have e35 : idx_main_v33 (idx_main_v35 (ix3 b i j)) = ix2 b i :=
    funext fun a => Fin.ext (by match a with | ⟨0, _⟩ => rfl | ⟨1, _⟩ => rfl)
  have e36 : idx_main_v34 (idx_main_v36 (ix3 b i j)) = ix2 b j :=
    funext fun a => Fin.ext (by match a with | ⟨0, _⟩ => rfl | ⟨1, _⟩ => rfl)
  rw [val_main_v38_apply, val_main_v37_apply, val_main_v35_apply, val_main_v33_apply, val_main_v36_apply, val_main_v34_apply,
    e35, e36, update_stage_apply]
  rfl

/-! ## The output before its last projection -/

/-- The reference's output before the projection by `Wo`, at `(b, i)`: the new matrix's row sum (from `0`) times the query
    feature. -/
theorem pre_projection_apply (b : Fin 32) (i : Fin 2048) :
    val_main_v46 (F := Ideal) x0 x1 x2 x3 x4 x5 x6 x7 x10 x11 (ix2 b i)
      = (0 + ∑ j : Fin 2048, (x1 (ix3 b i j)
            + updateVec x0 x1 x4 x5 x6 x7 x10 x11 b i * val_main_v27 (F := Ideal) x0 x4 x5 (ix2 b j)))
          * val_main_v44 (F := Ideal) x0 x2 x3 (ix2 b i) := by
  have e45 : ∀ k : Fin 2048, idx_main_v45 (ix2 b i) k = ix3 b i k := fun k =>
    funext fun a => Fin.ext (by match a with | ⟨0, _⟩ => rfl | ⟨1, _⟩ => rfl | ⟨2, _⟩ => rfl)
  rw [val_main_v46_apply, val_main_v45_apply, val_main_cst_2_apply]
  simp only [e45, new_matrices_apply]
  show (Ideal.ofBits .f32 0x00000000#32 + _) * _ = _
  rw [Ideal.ofBits_zero_f32]

end Cert.ReferenceIdeal.RefValue

end
-- ==== Proof.Bridge.lean ====
/-
  The two programs compute one function.

  Over the same arguments, the reference's stages are, entry by entry, what the kernel side computes:
    * the new matrices: both are `W b i j + dv b i * kp b j` with the same update vector `dv` — the kernel reads the value
      rows, the key features and the gates through arrays with a unit axis in the middle, which only re-indexes;
    * the output before its last projection: the reference sums the UPDATED row and multiplies by the query feature;
      the kernel side multiplies the query feature by the OLD row's sum plus `dv b i` times the sum of the key features.
      The two agree because the key features are nonnegative (Proof/RankOneSum.lean, Proof/ReferenceValue.lean).
-/
import proofs.«126555_j12223476924536_2_alg».proof.Proof.KernelBlocks
import proofs.«126555_j12223476924536_2_alg».proof.Proof.KernelHost
import proofs.«126555_j12223476924536_2_alg».proof.Proof.ReferenceValue
import proofs.«126555_j12223476924536_2_alg».proof.Proof.RankOneSum

noncomputable section

namespace Cert.Bridge

open Idealize.ShloMosaic Idealize.ShloMosaic.ValueIdx
open Cert.ReferenceIdeal.Read Cert.ReferenceIdeal.RefValue

variable (x0 : Arr Cert.ReferenceIdeal.S32x1024) (x1 : Arr Cert.ReferenceIdeal.S32x2048x2048) (x2 : Arr Cert.ReferenceIdeal.S1024x1024)
  (x3 : Arr Cert.ReferenceIdeal.S1024) (x4 : Arr Cert.ReferenceIdeal.S1024x1024) (x5 : Arr Cert.ReferenceIdeal.S1024)
  (x6 : Arr Cert.ReferenceIdeal.S1024x2048) (x7 : Arr Cert.ReferenceIdeal.S2048) (x8 : Arr Cert.ReferenceIdeal.S2048x1024)
  (x9 : Arr Cert.ReferenceIdeal.S1024) (x10 : Arr Cert.ReferenceIdeal.S1024x1) (x11 : Arr Cert.ReferenceIdeal.S1)

open Cert.KernelIdeal.Host (valueArr keyArr gateArr)

/-- The update vector: the kernel side's, over the three arrays, is the reference's, over the stages. -/
theorem update_vec_eq (b : Fin 32) (i : Fin 2048) :
    Cert.KernelIdeal.Blocks.updateVec x1 (valueArr x0 x6 x7) (keyArr x0 x4 x5) (gateArr x0 x10 x11) b i
      = updateVec x0 x1 x4 x5 x6 x7 x10 x11 b i := by
  unfold Cert.KernelIdeal.Blocks.updateVec updateVec valueArr keyArr gateArr
  rw [Cert.KernelIdeal.Host.add_unit_apply (n := 1), Cert.KernelIdeal.Host.add_unit_apply (n := 2048),
    Cert.KernelIdeal.Host.add_unit_apply (n := 2048)]

/-- The new matrices: one function. -/
theorem matrices_eq :
    val_main_v38 (F := Ideal) x0 x1 x4 x5 x6 x7 x10 x11
      = Cert.KernelIdeal.Blocks.newMatrices x1 (valueArr x0 x6 x7) (keyArr x0 x4 x5) (gateArr x0 x10 x11) := by
  funext y
  obtain ⟨b, i, j, rfl⟩ : ∃ (b : Fin 32) (i j : Fin 2048), y = ix3 b i j := ⟨y 0, y 1, y 2, eq_ix3 y⟩
  rw [new_matrices_apply, Cert.KernelIdeal.Blocks.newMatrices_apply, update_vec_eq]
  unfold keyArr
  rw [Cert.KernelIdeal.Host.add_unit_apply (n := 2048)]

/-- The output before its last projection: one function, by the law of the nonnegative key features. -/
theorem pre_projection_eq :
    val_main_v46 (F := Ideal) x0 x1 x2 x3 x4 x5 x6 x7 x10 x11
      = Cert.KernelIdeal.Host.preProjection (val_main_v44 (F := Ideal) x0 x2 x3) (Cert.KernelIdeal.Blocks.rowSums x1)
          (Cert.KernelIdeal.Blocks.updateVecs x1 (valueArr x0 x6 x7) (keyArr x0 x4 x5) (gateArr x0 x10 x11))
          (val_main_v27 (F := Ideal) x0 x4 x5) := by
  funext y
  obtain ⟨b, i, rfl⟩ : ∃ (b : Fin 32) (i : Fin 2048), y = ix2 b i := ⟨y 0, y 1, eq_ix2 y⟩
  rw [pre_projection_apply, Cert.KernelIdeal.Host.preProjection_apply, Cert.KernelIdeal.Blocks.rowSums_apply,
    Cert.KernelIdeal.Blocks.updateVecs_apply, update_vec_eq]
  exact Cert.RankOneSum.row_out (fun j : Fin 2048 => x1 (ix3 b i j)) (fun j : Fin 2048 => val_main_v27 (F := Ideal) x0 x4 x5 (ix2 b j))
    (updateVec x0 x1 x4 x5 x6 x7 x10 x11 b i) (val_main_v44 (F := Ideal) x0 x2 x3 (ix2 b i))
    (fun j => key_nonneg x0 x4 x5 (ix2 b j))

/-- The reference's first result is the shared last projection of its pre-projection stage (the same two lines in both
    programs: times the output weights, plus the output bias). -/
theorem out_is_projection :
    val_main_v50 (F := Ideal) x0 x1 x2 x3 x4 x5 x6 x7 x8 x9 x10 x11
      = Cert.KernelIdeal.Host.project (val_main_v46 (F := Ideal) x0 x1 x2 x3 x4 x5 x6 x7 x10 x11) x8 x9 := rfl

end Cert.Bridge

end
-- ==== Proof.lean ====
/-
  The certificate: a fused delta-rule update against its plain reference, on the extended reals.

  Both programs take a batch of 32 matrices `W` ([2048, 2048] each) and, from shared host stages — value rows `v`, gates
  `beta`, key features `kp` and query features `qp` —, form the update vectors `dv b i = beta b * (v b i - (∑ r, W b r i) *
  kp b i)`, the new matrices `W' b i j = W b i j + dv b i * kp b j`, and an output `(outv) Wo + bo`.
    * The reference takes `outv b i = (∑ j, W' b i j) * qp b i`.
    * The kernel never sums `W'`: one grid point per batch element computes `dv`, the row sums `s b i = ∑ j, W b i j` and
      `W'` from one resident slab, and the host then takes `outv b i = qp b i * (s b i + dv b i * ∑ j, kp b j)`.
  The two agree because `∑ j, dv * kp j = dv * ∑ j, kp j` when every `kp j ≥ 0`, and `kp` is a product of two values
  clamped below at zero (Proof/RankOneSum.lean); no finiteness of the inputs is needed, so the precondition is never opened.

  Modules: Proof/KernelBody.lean (the body's three stores at an index), Proof/KernelBlocks.lean (the 32 blocks tile each
  output array), Proof/KernelHost*.lean (the host lines before and after the region), Proof/KernelRun.lean (the kernel's
  run read back), Proof/ReferenceValue.lean (the reference at an index; `kp ≥ 0`), Proof/Bridge.lean (one function).
  The frames are the generated ones; the ideal pass rewrote nothing, so `preserves` has nothing to state.
-/
import proofs.«126555_j12223476924536_2_alg».proof.Defs
import proofs.«126555_j12223476924536_2_alg».proof.Proof.Gen.Kernel
import proofs.«126555_j12223476924536_2_alg».proof.Proof.Gen.Kernel.Frame
import proofs.«126555_j12223476924536_2_alg».proof.Proof.Gen.KernelIdeal
import proofs.«126555_j12223476924536_2_alg».proof.Proof.Gen.KernelIdeal.Frame
import proofs.«126555_j12223476924536_2_alg».proof.Proof.Gen.ReferenceIdeal
import proofs.«126555_j12223476924536_2_alg».proof.Proof.Gen.ReferenceIdeal.Run
import proofs.«126555_j12223476924536_2_alg».proof.Proof.Gen.ReferenceIdeal.Read
import proofs.«126555_j12223476924536_2_alg».proof.Proof.Gen.Pre_finite_inputs
import proofs.«126555_j12223476924536_2_alg».proof.Proof.KernelRun
import proofs.«126555_j12223476924536_2_alg».proof.Proof.Bridge
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no kernel: its frame is its generated run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel. -/
theorem preserves : Cert.preserves_Kernel_KernelIdeal := trivial

/-- From memories that agree on the arguments both programs end with the same two results: the kernel's run gives them
    as functions of its launch memory (Proof/KernelRun.lean); the reference's run gives its stages of ITS launch memory,
    which the agreement turns into stages of the kernel's, and those are the same functions (Proof/Bridge.lean). -/
theorem algebraic : Cert.algebraic_KernelIdeal_ReferenceIdeal := by
  intro m ρ m' ρ' _ hagree
  refine ⟨fun c => Cert.KernelIdeal.Host.project (Cert.KernelIdeal.RunValue.preOut m c) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.KernelIdeal.RunValue.matricesOut m c, Cert.KernelIdeal.RunValue.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11⟩ := hagree c
  refine ⟨(h c).1.trans ?_, (h c).2.1.trans ?_, (h c).2.2⟩
  · rw [Cert.ReferenceIdeal.Read.val_main_v50_eq, a0, a1, a2, a3, a4, a5, a6, a7, a8, a9, a10, a11,
      Cert.Bridge.out_is_projection, Cert.Bridge.pre_projection_eq]
    rfl
  · rw [Cert.ReferenceIdeal.Read.val_main_v38_eq, a0, a1, a4, a5, a6, a7, a10, a11, Cert.Bridge.matrices_eq]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
